-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S512x1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32x512 .f32) (main_arg7 : FVec F S512 .f32) (main_arg8 : FVec F S512x1 .f32) (main_arg9 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x2048x64 .f32) (main_arg1 : FVec F S32x2048x2048 .f32) (main_arg2 : FVec F S64x32 .f32) (main_arg3 : FVec F S32 .f32) (main_arg4 : FVec F S32x32 .f32) (main_arg5 : FVec F S32 .f32) (main_arg6 : FVec F S32x512 .f32) (main_arg7 : FVec F S512 .f32) (main_arg8 : FVec F S512x1 .f32) (main_arg9 : FVec F S1 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S1x32 : Shape := ⟨2, ![1, 32]⟩
abbrev S32x1x32 : Shape := ⟨3, ![32, 1, 32]⟩
abbrev S1x2048x64 : Shape := ⟨3, ![1, 2048, 64]⟩
abbrev S1x2048x2048 : Shape := ⟨3, ![1, 2048, 2048]⟩
abbrev S1x1x32 : Shape := ⟨3, ![1, 1, 32]⟩
abbrev S2048x32 : Shape := ⟨2, ![2048, 32]⟩
abbrev S2048x64 : Shape := ⟨2, ![2048, 64]⟩
abbrev S1x256x2048 : Shape := ⟨3, ![1, 256, 2048]⟩
abbrev S256x2048 : Shape := ⟨2, ![256, 2048]⟩
abbrev S256x32 : Shape := ⟨2, ![256, 32]⟩
abbrev S1x512 : Shape := ⟨2, ![1, 512]⟩
abbrev S_ : Shape := ⟨0, ![]⟩
abbrev S32x1 : Shape := ⟨2, ![32, 1]⟩
abbrev S1x1 : Shape := ⟨2, ![1, 1]⟩

abbrev nBuf : Space → Nat
  | .hbm => 25
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x2048, .f32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S1x32, .f32⟩
  | .hbm, ⟨11, _⟩ => ⟨S1x32, .f32⟩
  | .hbm, ⟨12, _⟩ => ⟨S32x1x32, .f32⟩
  | .hbm, ⟨13, _⟩ => ⟨S32x32, .f32⟩
  | .hbm, ⟨14, _⟩ => ⟨S32x512, .f32⟩
  | .hbm, ⟨15, _⟩ => ⟨S1x512, .f32⟩
  | .hbm, ⟨16, _⟩ => ⟨S32x512, .f32⟩
  | .hbm, ⟨17, _⟩ => ⟨S32x512, .f32⟩
  | .hbm, ⟨18, _⟩ => ⟨S_, .f32⟩
  | .hbm, ⟨19, _⟩ => ⟨S32x512, .f32⟩
  | .hbm, ⟨20, _⟩ => ⟨S32x512, .f32⟩
  | .hbm, ⟨21, _⟩ => ⟨S32x1, .f32⟩
  | .hbm, ⟨22, _⟩ => ⟨S1x1, .f32⟩
  | .hbm, ⟨23, _⟩ => ⟨S32x1, .f32⟩
  | .hbm, ⟨24, _⟩ => ⟨S32x1, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x2048, .f32⟩
  | .local _ .vmem, ⟨3, _⟩ => ⟨S1x2048x2048, .f32⟩
  | .local _ .vmem, ⟨4, _⟩ => ⟨S64x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x1x32, .f32⟩
  | .local _ .vmem, ⟨9, _⟩ => ⟨S1x1x32, .f32⟩
  | .local _ .vmem, ⟨10, _⟩ => ⟨S2048x32, .f32⟩
  | .local _ .vmem, ⟨11, _⟩ => ⟨S2048x32, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32_31 : BitVec 32 := 0#32
  let c0_i32 : BitVec 32 := 0#32
  let c1_i32 : BitVec 32 := 1#32
  let arg10 : BitVec 32 := Scf.iv c0_i32 c1_i32 k0_t1
  let c1_i32_30 : BitVec 32 := 1#32
  let v31 : BitVec 32 := Scalar.muli arg10 c1_i32_30
  let v32 : BitVec 32 := Scalar.addi c0_i32_31 v31
  let c256_i32 : BitVec 32 := 256#32
  let v33 : BitVec 32 := Scalar.muli v32 c256_i32
  v33
def k0_off1 (k0_t1 : Fin k0_t1_loop.trips) : Fin 3 → Nat :=
  let c0_32 : Index := 0#32
  let c0_i32_31 : BitVec 32 := 0#32
  let c0_i32 : BitVec 32 := 0#32
  let c1_i32 : BitVec 32 := 1#32
  let arg10 : BitVec 32 := Scf.iv c0_i32 c1_i32 k0_t1
  let c1_i32_30 : BitVec 32 := 1#32
  let v31 : BitVec 32 := Scalar.muli arg10 c1_i32_30
  let v32 : BitVec 32 := Scalar.addi c0_i32_31 v31
  let c256_i32 : BitVec 32 := 256#32
  let v33 : BitVec 32 := Scalar.muli v32 c256_i32
  let v34 : BitVec 32 := v33
  let v35 : Index := Scalar.indexCast v34
  let c0_33 : Index := 0#32
  ![0, v35.toNat, 0]
def k0_off2 (k0_t1 : Fin k0_t1_loop.trips) : Fin 2 → Nat :=
  let c0_i32_31 : BitVec 32 := 0#32
  let c0_i32 : BitVec 32 := 0#32
  let c1_i32 : BitVec 32 := 1#32
  let arg10 : BitVec 32 := Scf.iv c0_i32 c1_i32 k0_t1
  let c1_i32_30 : BitVec 32 := 1#32
  let v31 : BitVec 32 := Scalar.muli arg10 c1_i32_30
  let v32 : BitVec 32 := Scalar.addi c0_i32_31 v31
  let c256_i32 : BitVec 32 := 256#32
  let v33 : BitVec 32 := Scalar.muli v32 c256_i32
  let v34 : BitVec 32 := v33
  let v44 : Index := Scalar.indexCast v34
  let c0_36 : Index := 0#32
  ![v44.toNat, 0]
@[reducible] def k0_t2_loop : Scf.Loop 32 :=
  let c0_i32_26 : BitVec 32 := 0#32
  let c8_i32_27 : BitVec 32 := 8#32
  let v30 : BitVec 32 := Scalar.addi c0_i32_26 c8_i32_27
  let c1_i32_28 : BitVec 32 := 1#32
  ⟨c0_i32_26, v30, c1_i32_28⟩
def k0_mult2 (k0_t2 : Fin k0_t2_loop.trips) : BitVec 32 :=
  let c0_i32_31 : BitVec 32 := 0#32
  let c0_i32_26 : BitVec 32 := 0#32
  let c1_i32_28 : BitVec 32 := 1#32
  let arg10 : BitVec 32 := Scf.iv c0_i32_26 c1_i32_28 k0_t2
  let c1_i32_30 : BitVec 32 := 1#32
  let v31 : BitVec 32 := Scalar.muli arg10 c1_i32_30
  let v32 : BitVec 32 := Scalar.addi c0_i32_31 v31
  let c256_i32 : BitVec 32 := 256#32
  let v33 : BitVec 32 := Scalar.muli v32 c256_i32
  v33
def k0_off3 (k0_t2 : Fin k0_t2_loop.trips) : Fin 3 → Nat :=
  let c0_32 : Index := 0#32
  let c0_i32_31 : BitVec 32 := 0#32
  let c0_i32_26 : BitVec 32 := 0#32
  let c1_i32_28 : BitVec 32 := 1#32
  let arg10 : BitVec 32 := Scf.iv c0_i32_26 c1_i32_28 k0_t2
  let c1_i32_30 : BitVec 32 := 1#32
  let v31 : BitVec 32 := Scalar.muli arg10 c1_i32_30
  let v32 : BitVec 32 := Scalar.addi c0_i32_31 v31
  let c256_i32 : BitVec 32 := 256#32
  let v33 : BitVec 32 := Scalar.muli v32 c256_i32
  let v34 : BitVec 32 := v33
  let v35 : Index := Scalar.indexCast v34
  let c0_33 : Index := 0#32
  ![0, v35.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32_S1x32 : S32.ShapeCasts S1x32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  h_S1x256x2048 : 0 < S1x256x2048.numel
  shapeCasts_S1x256x2048_S256x2048 : S1x256x2048.ShapeCasts S256x2048
  broadcasts_S1x32_S256x32 : S1x32.Broadcasts S256x32
  h_S256x32 : 0 < S256x32.numel
  shapeCasts_S256x32_S256x32 : S256x32.ShapeCasts S256x32
  inb_S32x32_S32x32_0_0 : ∀ a, (![0, 0] : Fin 2 → Nat) a + S32x32.size a ≤ S32x32.size a
  h_S32x32 : 0 < S32x32.numel
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  reduces_S256x32_S32 : S256x32.Reduces [0] S32
  shapeCasts_S32x1x32_S32x32 : S32x1x32.ShapeCasts S32x32
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S2048x64_S64x32_S2048x32_1_0_0_1_n_n_wf : DotDims.WF S2048x64 S64x32 S2048x32 [1] [0] [0] [1] [] []
  dot_S256x2048_S2048x32_S256x32_1_0_0_1_n_n_wf : DotDims.WF S256x2048 S2048x32 S256x32 [1] [0] [0] [1] [] []
  dot_S2048x32_S32x32_S2048x32_1_0_0_1_n_n_wf : DotDims.WF S2048x32 S32x32 S2048x32 [1] [0] [0] [1] [] []
  dot_S32x32_S32x512_S32x512_1_0_0_1_n_n_wf : DotDims.WF S32x32 S32x512 S32x512 [1] [0] [0] [1] [] []
  dot_S32x512_S512x1_S32x1_1_0_0_1_n_n_wf : DotDims.WF S32x512 S512x1 S32x1 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x2048.size a ≤ S1x2048x2048.size a
  k0_off2_inb : ∀ k0_t1 : Fin k0_t1_loop.trips, ∀ a, (k0_off2 k0_t1) a + S256x32.size a ≤ S2048x32.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S1x256x2048.size a ≤ S1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S32x2048x2048.size a
  hwx0_1 : ∀ i : grid0.Coords, EltTy.bits .f32 = 32 ∨ (Rect.block (s := S32x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x32.size a ≤ S32x1x32.size a
  hwx0_6 : ∀ i : grid0.Coords, EltTy.bits .f32 = 32 ∨ (Rect.block (s := S32x1x32) S1x1x32.size (cc0_transform_6 i) (hinb0_6 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S256x2048_S2048x32_S256x32_1_0_0_1_n_n : DotDims S256x2048 S2048x32 S256x32 where
  lhsContracting := [1]
  rhsContracting := [0]
  lhsNonContracting := [0]
  rhsNonContracting := [1]
  lhsBatch := []
  rhsBatch := []
  wf := dot_S256x2048_S2048x32_S256x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S32x2048x32 : Shape := ⟨3, ![32, 2048, 32]⟩
abbrev S1x1x32 : Shape := ⟨3, ![1, 1, 32]⟩
abbrev S_ : Shape := ⟨0, ![]⟩
abbrev S1x512 : Shape := ⟨2, ![1, 512]⟩
abbrev S32x1 : Shape := ⟨2, ![32, 1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x2048, .f32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S32x2048x32, .f32⟩
  | .hbm, ⟨11, _⟩ => ⟨S32x2048x32, .f32⟩
  | .hbm, ⟨12, _⟩ => ⟨S1x1x32, .f32⟩
  | .hbm, ⟨13, _⟩ => ⟨S32x2048x32, .f32⟩
  | .hbm, ⟨14, _⟩ => ⟨S32x2048x32, .f32⟩
  | .hbm, ⟨15, _⟩ => ⟨S_, .f32⟩
  | .hbm, ⟨16, _⟩ => ⟨S32x2048x32, .f32⟩
  | .hbm, ⟨17, _⟩ => ⟨S32x2048x32, .f32⟩
  | .hbm, ⟨18, _⟩ => ⟨S32x2048x32, .f32⟩
  | .hbm, ⟨19, _⟩ => ⟨S32x2048x32, .f32⟩
  | .hbm, ⟨20, _⟩ => ⟨S1x1x32, .f32⟩
  | .hbm, ⟨21, _⟩ => ⟨S32x2048x32, .f32⟩
  | .hbm, ⟨22, _⟩ => ⟨S32x2048x32, .f32⟩
  | .hbm, ⟨23, _⟩ => ⟨S_, .f32⟩
  | .hbm, ⟨24, _⟩ => ⟨S32x2048x32, .f32⟩
  | .hbm, ⟨25, _⟩ => ⟨S32x2048x32, .f32⟩
  | .hbm, ⟨26, _⟩ => ⟨S_, .f32⟩
  | .hbm, ⟨27, _⟩ => ⟨S32x32, .f32⟩
  | .hbm, ⟨28, _⟩ => ⟨S32x512, .f32⟩
  | .hbm, ⟨29, _⟩ => ⟨S1x512, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S32x512, .f32⟩
  | .hbm, ⟨34, _⟩ => ⟨S32x512, .f32⟩
  | .hbm, ⟨35, _⟩ => ⟨S32x1, .f32⟩
  | .hbm, ⟨36, _⟩ => ⟨S1x1, .f32⟩
  | .hbm, ⟨37, _⟩ => ⟨S32x1, .f32⟩
  | .hbm, ⟨38, _⟩ => ⟨S32x1, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S32x2048x32_0_1_2 : S1x1x32.BroadcastsInDim S32x2048x32 (![0, 1, 2] : Fin 3 → Fin S32x2048x32.rank)
  bcast_S_S32x2048x32 : S_.BroadcastsInDim S32x2048x32 (![] : Fin 0 → Fin S32x2048x32.rank)
  reducesTo_S32x2048x32_S32x32_d1 : S32x2048x32.ReducesTo [1] S32x32
  h_S_ : 0 < S_.numel
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S32x2048x64_S64x32_S32x2048x32_2_0_01_1_n_n_wf : DotDims.WF S32x2048x64 S64x32 S32x2048x32 [2] [0] [0, 1] [1] [] []
  dot_S32x2048x2048_S32x2048x32_S32x2048x32_2_1_1_2_0_0_wf : DotDims.WF S32x2048x2048 S32x2048x32 S32x2048x32 [2] [1] [1] [2] [0] [0]
  dot_S32x2048x32_S32x32_S32x2048x32_2_0_01_1_n_n_wf : DotDims.WF S32x2048x32 S32x32 S32x2048x32 [2] [0] [0, 1] [1] [] []
  dot_S32x32_S32x512_S32x512_1_0_0_1_n_n_wf : DotDims.WF S32x32 S32x512 S32x512 [1] [0] [0] [1] [] []
  dot_S32x512_S512x1_S32x1_1_0_0_1_n_n_wf : DotDims.WF S32x512 S512x1 S32x1 [1] [0] [0] [1] [] []

variable [Facts₀]

def dot_S32x2048x64_S64x32_S32x2048x32_2_0_01_1_n_n : DotDims S32x2048x64 S64x32 S32x2048x32 where
  lhsContracting := [2]
  rhsContracting := [0]
  lhsNonContracting := [0, 1]
  rhsNonContracting := [1]
  lhsBatch := []
  rhsBatch := []
  wf := dot_S32x2048x64_S64x32_S32x2048x32_2_0_01_1_n_n_wf
def dot_S32x2048x2048_S32x2048x32_S32x2048x32_2_1_1_2_0_0 : DotDims S32x2048x2048 S32x2048x32 S32x2048x32 where
  lhsContracting := [2]
  rhsContracting := [1]
  lhsNonContracting := [1]
  rhsNonContracting := [2]
  lhsBatch := [0]
  rhsBatch := [0]
  wf := dot_S32x2048x2048_S32x2048x32_S32x2048x32_2_1_1_2_0_0_wf
def dot_S32x2048x32_S32x32_S32x2048x32_2_0_01_1_n_n : DotDims S32x2048x32 S32x32 S32x2048x32 where
  lhsContracting := [2]
  rhsContracting := [0]
  lhsNonContracting := [0, 1]
  rhsNonContracting := [1]
  lhsBatch := []
  rhsBatch := []
  wf := dot_S32x2048x32_S32x32_S32x2048x32_2_0_01_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf

class Facts : Prop extends Facts₀ where

variable [Facts]
-- ==== Proof.LibTiles.lean ====
/-
  Two general facts about a buffer that is filled by stores.

  * The library's list of the first `j` of `NT` tile stores (`View.tilePieces`) contains the store of every tile
    `i < j`.
  * Stores that cover a whole buffer leave the same contents whatever they were written over: an element some store
    covers reads that store's value either way, and a whole buffer has no other elements. So over any prior contents
    the buffer holds the stores over the view's junk.
-/
import Idealize.ShloMosaic.Lib.WritesUnit
import Idealize.ShloMosaic.Lib.Exec.Context

noncomputable section

namespace Cert.LibTiles

open Idealize.ShloMosaic

/-- Every tile store of the first `j` trips is in their list. -/
theorem mem_tilePieces {s : Shape} {e : EltTy} {Val : EltTy → Type} {NT : ℕ} (tsz : Fin s.rank → ℕ) (off : Fin NT → Fin s.rank → ℕ)
    (inb : ∀ i a, off i a + tsz a ≤ s.size a) (P : Fin NT → (⟨s.rank, tsz⟩ : Shape).Idx → Val e) :
    ∀ (j : ℕ) (hj : j ≤ NT) (i : Fin NT), i.val < j →
      (⟨Rect.unit (off i) tsz (inb i), P i⟩ : View.Piece Val s e) ∈ View.tilePieces tsz off inb P j hj
  | 0, _, _, h => absurd h (Nat.not_lt_zero _)
  | j + 1, hj, i, h => by
    rw [View.tilePieces_succ]
    by_cases hi : i.val = j
    · obtain rfl : i = ⟨j, hj⟩ := Fin.ext hi
      exact List.mem_cons_self
    · exact List.mem_cons_of_mem _ (mem_tilePieces tsz off inb P j (Nat.le_of_succ_le hj) i (by omega))

/-- Writes that cover a whole buffer leave the same contents whatever they were written over. -/
theorem writes_eq_junk_of_cover {sig' : RefSig} {κ : Kind} {sp : Space} {s : Shape} {e : EltTy} {Val : EltTy → Type} [∀ e, Nonempty (Val e)]
    {m : Memref sig' κ sp s e} (hw : m.IsWhole) (f : m.view.ty.Contents Val) (L : List (View.Piece Val s e))
    (hcov : ∀ y : s.Idx, ∃ p ∈ L, y ∈ p.1.set) : m.view.writes Val f L = m.view.writes Val m.view.junk L := by
  obtain ⟨b, rfl, rfl, rfl, h⟩ := hw
  cases h
  funext y
  exact View.read_writes_apply_eq (View.whole b) f (View.whole b) (View.whole b).junk y L (hcov y)

end Cert.LibTiles

end
-- ==== Proof.TripsK.lean ====
/-
  The two counted loops of the body, trip by trip.

  Both loops walk the adjacency block in eight slices of 256 consecutive rows. A trip of the first loop stores one tile
  of 256 rows of the first layer into a scratch buffer, at the rows of its slice; the tiles of different trips are kept
  apart by their rows, so after the loop row `n` of the buffer is row `n mod 256` of tile `n / 256`. A trip of the
  second loop overwrites the whole output row with a function of the row it finds there and of its slice, so after
  `k + 1` trips the row is that function of the row after `k` trips.
-/
import proofs.«144628_j41695542509689_2_alg».proof.Proof.Gen.Kernel.Loops
import Idealize.ShloMosaic.Lib.WritesUnit
import Idealize.ShloMosaic.Lib.Pipeline.Value
import Idealize.ShloMosaic.Lib.Exec.Context
import proofs.«144628_j41695542509689_2_alg».proof.Proof.LibTiles

set_option maxRecDepth 16384

noncomputable section

namespace Cert.Kernel.Trips

open Cert.Kernel Cert.Kernel.Gen Idealize.ShloMosaic

variable {F : FTy → Type} [FloatOps F]

/-- Slice `k` of the adjacency block, as a trip of the first loop loads it. -/
abbrev slice1 (arg2 : Memref sig .tc .vmem S1x2048x2048 .f32) (X : BufTy.Contents (Elt F) arg2.view.ty)
    (k : Fin k0_t1_loop.trips) : Vec F S1x256x2048 .f32 :=
  View.readAt (Elt F) arg2.view (Rect.unit (s := S1x2048x2048) (k0_off1 k) S1x256x2048.size (k0_off1_inb k)).toLoadRect X

/-- Slice `k` of the adjacency block, as a trip of the second loop loads it. -/
abbrev slice2 (arg2 : Memref sig .tc .vmem S1x2048x2048 .f32) (X : BufTy.Contents (Elt F) arg2.view.ty)
    (k : Fin k0_t2_loop.trips) : Vec F S1x256x2048 .f32 :=
  View.readAt (Elt F) arg2.view (Rect.unit (s := S1x2048x2048) (k0_off3 k) S1x256x2048.size (k0_off3_inb k)).toLoadRect X

/-- A trip of the first loop stores one tile: the first layer on its slice, at the slice's rows. -/
theorem tripL1_eq (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v9 v11 X_arg2 k
      = [⟨Rect.unit (s := S2048x32) (k0_off2 k) S256x32.size (k0_off2_inb k), k0_pay4 v9 v11 (slice1 arg2 X_arg2 k)⟩] := by
  unfold tripL_k0_t1 trip_k0_t1
  rfl

/-- A trip of the second loop stores the whole output row: a function of the row it finds and of its slice. -/
theorem tripL2_eq (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v23 : FVec F S2048x32 .bf16) (v25 : FVec F S1x32 .f32) (X_arg2 : BufTy.Contents (Elt F) arg2.view.ty) (k : Fin k0_t2_loop.trips) (f_arg7 : BufTy.Contents (Elt F) arg7.view.ty) :
    tripL_k0_t2 (F := F) 𝒱 c bd i arg1 harg1 arg2 harg2 arg3 harg3 arg4 harg4 arg5 harg5 arg6 harg6 arg7 harg7 arg8 harg8 arg9 harg9 v23 v25 X_arg2 k f_arg7
      = [⟨Rect.unit (s := S1x1x32) ![0, 0, 0] S1x1x32.size inb_S1x1x32_S1x1x32_0_0_0,
          k0_pay2 v23 v25 (slice2 arg2 X_arg2 k)
            (View.readAt (Elt F) arg7.view (Rect.unit (s := S1x1x32) ![0, 0, 0] S1x1x32.size inb_S1x1x32_S1x1x32_0_0_0).toLoadRect f_arg7)⟩] := by
  unfold tripL_k0_t2 trip_k0_t2
  rfl

/-! ## The first loop's tiles -/

/-- Tile `k`: the first layer on slice `k`. -/
abbrev tile1 (arg2 : Memref sig .tc .vmem S1x2048x2048 .f32) (v9 : Vec F S2048x32 .f32) (v11 : Vec F S1x32 .f32)
    (X : BufTy.Contents (Elt F) arg2.view.ty) (k : Fin k0_t1_loop.trips) : (⟨S2048x32.rank, S256x32.size⟩ : Shape).Idx → Elt F .f32 :=
  k0_pay4 v9 v11 (slice1 arg2 X k)

/-- The pieces of the first `j` trips are the tile stores of those trips, newest first. -/
theorem pb1_eq_tiles (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) :
    ∀ (j : ℕ) (hj : j ≤ k0_t1_loop.trips),
      pb_k0_t1 (F := F) 𝒱 c bd i arg1 harg1 arg2 harg2 arg3 harg3 arg4 harg4 arg5 harg5 arg6 harg6 arg7 harg7 arg8 harg8 arg9 harg9 v9 v11 X_arg2 j
        = View.tilePieces (s := S2048x32) (e := .f32) (Val := Elt F) S256x32.size (fun k => k0_off2 k) (fun k => k0_off2_inb k)
            (tile1 arg2 v9 v11 X_arg2) j hj
  | 0, _ => rfl
  | j + 1, hj => by
    have hs := pb_k0_t1_succ (F := F) 𝒱 c bd i arg1 harg1 arg2 harg2 arg3 harg3 arg4 harg4 arg5 harg5 arg6 harg6 arg7 harg7 arg8 harg8 arg9 harg9 v9 v11 X_arg2 ⟨j, hj⟩
    rw [show pb_k0_t1 (F := F) 𝒱 c bd i arg1 harg1 arg2 harg2 arg3 harg3 arg4 harg4 arg5 harg5 arg6 harg6 arg7 harg7 arg8 harg8 arg9 harg9 v9 v11 X_arg2 (j + 1)
        = tripL_k0_t1 (F := F) 𝒱 c bd i arg1 harg1 arg2 harg2 arg3 harg3 arg4 harg4 arg5 harg5 arg6 harg6 arg7 harg7 arg8 harg8 arg9 harg9 v9 v11 X_arg2 ⟨j, hj⟩
          ++ pb_k0_t1 (F := F) 𝒱 c bd i arg1 harg1 arg2 harg2 arg3 harg3 arg4 harg4 arg5 harg5 arg6 harg6 arg7 harg7 arg8 harg8 arg9 harg9 v9 v11 X_arg2 j from hs,
      tripL1_eq, pb1_eq_tiles 𝒱 c bd i arg1 harg1 arg2 harg2 arg3 harg3 arg4 harg4 arg5 harg5 arg6 harg6 arg7 harg7 arg8 harg8 arg9 harg9 v9 v11 X_arg2 j (Nat.le_of_succ_le hj), View.tilePieces_succ]
    rfl

/-- The loop makes eight trips. -/
theorem trips1 : k0_t1_loop.trips = 8 := by decide

/-- The eight tiles cover the scratch buffer: row `n` lies in tile `n / 256`. -/
theorem pb1_cover (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (y : S2048x32.Idx) :
    ∃ p ∈ pb_k0_t1 (F := F) 𝒱 c bd i arg1 harg1 arg2 harg2 arg3 harg3 arg4 harg4 arg5 harg5 arg6 harg6 arg7 harg7 arg8 harg8 arg9 harg9 v9 v11 X_arg2 k0_t1_loop.trips, y ∈ p.1.set := by
  have h0 : (y 0).val < 2048 := (y 0).isLt
  have h1 : (y 1).val < 32 := (y 1).isLt
  have hi : (y 0).val / 256 < k0_t1_loop.trips := by rw [trips1]; omega
  refine ⟨⟨Rect.unit (s := S2048x32) (k0_off2 ⟨(y 0).val / 256, hi⟩) S256x32.size (k0_off2_inb ⟨(y 0).val / 256, hi⟩),
    tile1 arg2 v9 v11 X_arg2 ⟨(y 0).val / 256, hi⟩⟩, ?_, ?_⟩
  · rw [pb1_eq_tiles 𝒱 c bd i arg1 harg1 arg2 harg2 arg3 harg3 arg4 harg4 arg5 harg5 arg6 harg6 arg7 harg7 arg8 harg8 arg9 harg9 v9 v11 X_arg2 k0_t1_loop.trips le_rfl]
    exact Cert.LibTiles.mem_tilePieces _ _ _ _ _ le_rfl ⟨(y 0).val / 256, hi⟩ hi
  · show y ∈ (Rect.unit (s := S2048x32) (k0_off2 ⟨(y 0).val / 256, hi⟩) S256x32.size (k0_off2_inb ⟨(y 0).val / 256, hi⟩)).set
    rw [Rect.mem_set_unit]
    intro a
    rw [k0_off2_eq]
    match a with
    | ⟨0, _⟩ =>
      show 256 * ((y 0).val / 256) ≤ (y 0).val ∧ (y 0).val < 256 * ((y 0).val / 256) + 256
      omega
    | ⟨1, _⟩ =>
      show 0 ≤ (y 1).val ∧ (y 1).val < 0 + 32
      omega

/-- So what the tiles were written over is nowhere read: over any prior contents the buffer holds the tiles over junk. -/
theorem rebase9 (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (f : BufTy.Contents (Elt F) arg9.view.ty) :
    arg9.view.writes (Elt F) f (pb_k0_t1 (F := F) 𝒱 c bd i arg1 harg1 arg2 harg2 arg3 harg3 arg4 harg4 arg5 harg5 arg6 harg6 arg7 harg7 arg8 harg8 arg9 harg9 v9 v11 X_arg2 (Scf.trips k0_t1_loop.lb k0_t1_loop.ub k0_t1_loop.st))
      = arg9.view.writes (Elt F) arg9.view.junk
          (pb_k0_t1 (F := F) 𝒱 c bd i arg1 harg1 arg2 harg2 arg3 harg3 arg4 harg4 arg5 harg5 arg6 harg6 arg7 harg7 arg8 harg8 arg9 harg9 v9 v11 X_arg2 (Scf.trips k0_t1_loop.lb k0_t1_loop.ub k0_t1_loop.st)) := by
  exact Cert.LibTiles.writes_eq_junk_of_cover harg9 f _ (pb1_cover (F := F) 𝒱 c bd i arg1 harg1 arg2 harg2 arg3 harg3 arg4 harg4 arg5 harg5 arg6 harg6 arg7 harg7 arg8 harg8 arg9 harg9 v9 v11 X_arg2)

end Cert.Kernel.Trips

end
-- ==== Proof.Trips.lean ====
/-
  The two counted loops of the body, trip by trip.

  Both loops walk the adjacency block in eight slices of 256 consecutive rows. A trip of the first loop stores one tile
  of 256 rows of the first layer into a scratch buffer, at the rows of its slice; the tiles of different trips are kept
  apart by their rows, so after the loop row `n` of the buffer is row `n mod 256` of tile `n / 256`. A trip of the
  second loop overwrites the whole output row with a function of the row it finds there and of its slice, so after
  `k + 1` trips the row is that function of the row after `k` trips.
-/
import proofs.«144628_j41695542509689_2_alg».proof.Proof.Gen.KernelIdeal.Loops
import Idealize.ShloMosaic.Lib.WritesUnit
import Idealize.ShloMosaic.Lib.Pipeline.Value
import Idealize.ShloMosaic.Lib.Exec.Context
import proofs.«144628_j41695542509689_2_alg».proof.Proof.LibTiles

set_option maxRecDepth 16384

noncomputable section

namespace Cert.KernelIdeal.Trips

open Cert.KernelIdeal Cert.KernelIdeal.Gen Idealize.ShloMosaic

variable {F : FTy → Type} [FloatOps F]

/-- Slice `k` of the adjacency block, as a trip of the first loop loads it. -/
abbrev slice1 (arg2 : Memref sig .tc .vmem S1x2048x2048 .f32) (X : BufTy.Contents (Elt F) arg2.view.ty)
    (k : Fin k0_t1_loop.trips) : Vec F S1x256x2048 .f32 :=
  View.readAt (Elt F) arg2.view (Rect.unit (s := S1x2048x2048) (k0_off1 k) S1x256x2048.size (k0_off1_inb k)).toLoadRect X

/-- Slice `k` of the adjacency block, as a trip of the second loop loads it. -/
abbrev slice2 (arg2 : Memref sig .tc .vmem S1x2048x2048 .f32) (X : BufTy.Contents (Elt F) arg2.view.ty)
    (k : Fin k0_t2_loop.trips) : Vec F S1x256x2048 .f32 :=
  View.readAt (Elt F) arg2.view (Rect.unit (s := S1x2048x2048) (k0_off3 k) S1x256x2048.size (k0_off3_inb k)).toLoadRect X

/-- A trip of the first loop stores one tile: the first layer on its slice, at the slice's rows. -/
theorem tripL1_eq (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v9 v11 X_arg2 k
      = [⟨Rect.unit (s := S2048x32) (k0_off2 k) S256x32.size (k0_off2_inb k), k0_pay4 v9 v11 (slice1 arg2 X_arg2 k)⟩] := by
  unfold tripL_k0_t1 trip_k0_t1
  rfl

/-- A trip of the second loop stores the whole output row: a function of the row it finds and of its slice. -/
theorem tripL2_eq (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v23 : FVec F S2048x32 .bf16) (v25 : FVec F S1x32 .f32) (X_arg2 : BufTy.Contents (Elt F) arg2.view.ty) (k : Fin k0_t2_loop.trips) (f_arg7 : BufTy.Contents (Elt F) arg7.view.ty) :
    tripL_k0_t2 (F := F) 𝒱 c bd i arg1 harg1 arg2 harg2 arg3 harg3 arg4 harg4 arg5 harg5 arg6 harg6 arg7 harg7 arg8 harg8 arg9 harg9 v23 v25 X_arg2 k f_arg7
      = [⟨Rect.unit (s := S1x1x32) ![0, 0, 0] S1x1x32.size inb_S1x1x32_S1x1x32_0_0_0,
          k0_pay2 v23 v25 (slice2 arg2 X_arg2 k)
            (View.readAt (Elt F) arg7.view (Rect.unit (s := S1x1x32) ![0, 0, 0] S1x1x32.size inb_S1x1x32_S1x1x32_0_0_0).toLoadRect f_arg7)⟩] := by
  unfold tripL_k0_t2 trip_k0_t2
  rfl

/-! ## The first loop's tiles -/

/-- Tile `k`: the first layer on slice `k`. -/
abbrev tile1 (arg2 : Memref sig .tc .vmem S1x2048x2048 .f32) (v9 : Vec F S2048x32 .f32) (v11 : Vec F S1x32 .f32)
    (X : BufTy.Contents (Elt F) arg2.view.ty) (k : Fin k0_t1_loop.trips) : (⟨S2048x32.rank, S256x32.size⟩ : Shape).Idx → Elt F .f32 :=
  k0_pay4 v9 v11 (slice1 arg2 X k)

/-- The pieces of the first `j` trips are the tile stores of those trips, newest first. -/
theorem pb1_eq_tiles (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) :
    ∀ (j : ℕ) (hj : j ≤ k0_t1_loop.trips),
      pb_k0_t1 (F := F) 𝒱 c bd i arg1 harg1 arg2 harg2 arg3 harg3 arg4 harg4 arg5 harg5 arg6 harg6 arg7 harg7 arg8 harg8 arg9 harg9 v9 v11 X_arg2 j
        = View.tilePieces (s := S2048x32) (e := .f32) (Val := Elt F) S256x32.size (fun k => k0_off2 k) (fun k => k0_off2_inb k)
            (tile1 arg2 v9 v11 X_arg2) j hj
  | 0, _ => rfl
  | j + 1, hj => by
    have hs := pb_k0_t1_succ (F := F) 𝒱 c bd i arg1 harg1 arg2 harg2 arg3 harg3 arg4 harg4 arg5 harg5 arg6 harg6 arg7 harg7 arg8 harg8 arg9 harg9 v9 v11 X_arg2 ⟨j, hj⟩
    rw [show pb_k0_t1 (F := F) 𝒱 c bd i arg1 harg1 arg2 harg2 arg3 harg3 arg4 harg4 arg5 harg5 arg6 harg6 arg7 harg7 arg8 harg8 arg9 harg9 v9 v11 X_arg2 (j + 1)
        = tripL_k0_t1 (F := F) 𝒱 c bd i arg1 harg1 arg2 harg2 arg3 harg3 arg4 harg4 arg5 harg5 arg6 harg6 arg7 harg7 arg8 harg8 arg9 harg9 v9 v11 X_arg2 ⟨j, hj⟩
          ++ pb_k0_t1 (F := F) 𝒱 c bd i arg1 harg1 arg2 harg2 arg3 harg3 arg4 harg4 arg5 harg5 arg6 harg6 arg7 harg7 arg8 harg8 arg9 harg9 v9 v11 X_arg2 j from hs,
      tripL1_eq, pb1_eq_tiles 𝒱 c bd i arg1 harg1 arg2 harg2 arg3 harg3 arg4 harg4 arg5 harg5 arg6 harg6 arg7 harg7 arg8 harg8 arg9 harg9 v9 v11 X_arg2 j (Nat.le_of_succ_le hj), View.tilePieces_succ]
    rfl

/-- The loop makes eight trips. -/
theorem trips1 : k0_t1_loop.trips = 8 := by decide

/-- The eight tiles cover the scratch buffer: row `n` lies in tile `n / 256`. -/
theorem pb1_cover (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (y : S2048x32.Idx) :
    ∃ p ∈ pb_k0_t1 (F := F) 𝒱 c bd i arg1 harg1 arg2 harg2 arg3 harg3 arg4 harg4 arg5 harg5 arg6 harg6 arg7 harg7 arg8 harg8 arg9 harg9 v9 v11 X_arg2 k0_t1_loop.trips, y ∈ p.1.set := by
  have h0 : (y 0).val < 2048 := (y 0).isLt
  have h1 : (y 1).val < 32 := (y 1).isLt
  have hi : (y 0).val / 256 < k0_t1_loop.trips := by rw [trips1]; omega
  refine ⟨⟨Rect.unit (s := S2048x32) (k0_off2 ⟨(y 0).val / 256, hi⟩) S256x32.size (k0_off2_inb ⟨(y 0).val / 256, hi⟩),
    tile1 arg2 v9 v11 X_arg2 ⟨(y 0).val / 256, hi⟩⟩, ?_, ?_⟩
  · rw [pb1_eq_tiles 𝒱 c bd i arg1 harg1 arg2 harg2 arg3 harg3 arg4 harg4 arg5 harg5 arg6 harg6 arg7 harg7 arg8 harg8 arg9 harg9 v9 v11 X_arg2 k0_t1_loop.trips le_rfl]
    exact Cert.LibTiles.mem_tilePieces _ _ _ _ _ le_rfl ⟨(y 0).val / 256, hi⟩ hi
  · show y ∈ (Rect.unit (s := S2048x32) (k0_off2 ⟨(y 0).val / 256, hi⟩) S256x32.size (k0_off2_inb ⟨(y 0).val / 256, hi⟩)).set
    rw [Rect.mem_set_unit]
    intro a
    rw [k0_off2_eq]
    match a with
    | ⟨0, _⟩ =>
      show 256 * ((y 0).val / 256) ≤ (y 0).val ∧ (y 0).val < 256 * ((y 0).val / 256) + 256
      omega
    | ⟨1, _⟩ =>
      show 0 ≤ (y 1).val ∧ (y 1).val < 0 + 32
      omega

/-- So what the tiles were written over is nowhere read: over any prior contents the buffer holds the tiles over junk. -/
theorem rebase9 (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec F S2048x32 .f32) (v11 : Vec F S1x32 .f32) (X_arg2 : BufTy.Contents (Elt F) arg2.view.ty) (f : BufTy.Contents (Elt F) arg9.view.ty) :
    arg9.view.writes (Elt F) f (pb_k0_t1 (F := F) 𝒱 c bd i arg1 harg1 arg2 harg2 arg3 harg3 arg4 harg4 arg5 harg5 arg6 harg6 arg7 harg7 arg8 harg8 arg9 harg9 v9 v11 X_arg2 (Scf.trips k0_t1_loop.lb k0_t1_loop.ub k0_t1_loop.st))
      = arg9.view.writes (Elt F) arg9.view.junk
          (pb_k0_t1 (F := F) 𝒱 c bd i arg1 harg1 arg2 harg2 arg3 harg3 arg4 harg4 arg5 harg5 arg6 harg6 arg7 harg7 arg8 harg8 arg9 harg9 v9 v11 X_arg2 (Scf.trips k0_t1_loop.lb k0_t1_loop.ub k0_t1_loop.st)) := by
  exact Cert.LibTiles.writes_eq_junk_of_cover harg9 f _ (pb1_cover (F := F) 𝒱 c bd i arg1 harg1 arg2 harg2 arg3 harg3 arg4 harg4 arg5 harg5 arg6 harg6 arg7 harg7 arg8 harg8 arg9 harg9 v9 v11 X_arg2)

end Cert.KernelIdeal.Trips

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.Spec.lean ====
/-
  Two stacked graph-convolution layers followed by a sum over the nodes, on the extended reals.

  For one graph with `N` nodes: node features `x` (`N × K`), adjacency `a` (`N × N`), weights `W₁` (`K × C`) and
  `W₂` (`C × D`), biases `b₁` (`C`) and `b₂` (`D`). A layer takes projected features `p` to `max (a · p + b) 0`:
  it aggregates over the neighbours by the adjacency, adds the bias and clamps below at zero. The first layer is applied
  to `x · W₁`, the second to the first layer's output times `W₂`, and the pooled vector is the sum of the second
  layer's output over all nodes.

  The node sum may be taken slice by slice — starting from zero, each slice of consecutive nodes adding its own sum —
  and the result is the same: only commutativity and associativity of `+` are used, so nothing has to be finite.
-/
import Idealize.ShloMosaic.PureOps.Ideal
import proofs.«144628_j41695542509689_2_alg».proof.Proof.LibBlockSum

noncomputable section

open scoped BigOperators

namespace Cert.Gcn

variable {N K C D : ℕ}

/-- Features projected by a weight matrix: entry `(n, c)` is `∑ k, x n k · W k c`. -/
def proj (x : Fin N → Fin K → EReal) (W : Fin K → Fin C → EReal) (n : Fin N) (c : Fin C) : EReal :=
  ∑ k, x n k * W k c

/-- One layer on projected features `p`: entry `(n, c)` is `max (∑ m, a n m · p m c + b c) 0`. -/
def layer (a : Fin N → Fin N → EReal) (p : Fin N → Fin C → EReal) (b : Fin C → EReal) (n : Fin N) (c : Fin C) : EReal :=
  max (∑ m, a n m * p m c + b c) 0

/-- The second layer's output: the first layer on `x · W₁`, projected by `W₂`, through the layer again. -/
def hidden (x : Fin N → Fin K → EReal) (a : Fin N → Fin N → EReal) (W1 : Fin K → Fin C → EReal) (b1 : Fin C → EReal)
    (W2 : Fin C → Fin D → EReal) (b2 : Fin D → EReal) : Fin N → Fin D → EReal :=
  layer a (proj (layer a (proj x W1) b1) W2) b2

/-- Both layers, then the sum over the nodes. -/
def pooled (x : Fin N → Fin K → EReal) (a : Fin N → Fin N → EReal) (W1 : Fin K → Fin C → EReal) (b1 : Fin C → EReal)
    (W2 : Fin C → Fin D → EReal) (b2 : Fin D → EReal) (c : Fin D) : EReal :=
  ∑ n, hidden x a W1 b1 W2 b2 n c

/-- The sum of slice `k` of `B` consecutive terms (zero past the last slice). -/
def sliceSum {M : Type*} [AddCommMonoid M] (J B : ℕ) (f : Fin (J * B) → M) (k : ℕ) : M :=
  if h : k < J then ∑ r : Fin B, f (finProdFinEquiv (⟨k, h⟩, r)) else 0

/-- The running total after the first `k` slices, starting from zero. -/
def running {M : Type*} [AddCommMonoid M] (J B : ℕ) (f : Fin (J * B) → M) : ℕ → M
  | 0 => 0
  | k + 1 => running J B f k + sliceSum J B f k

theorem running_eq_sum_range {M : Type*} [AddCommMonoid M] (J B : ℕ) (f : Fin (J * B) → M) (k : ℕ) :
    running J B f k = ∑ j ∈ Finset.range k, sliceSum J B f j := by
  induction k with
  | zero => simp [running]
  | succ k ih => rw [running, ih, Finset.sum_range_succ]

/-- After all `J` slices the running total is the whole sum. -/
theorem running_all {M : Type*} [AddCommMonoid M] (J B : ℕ) (f : Fin (J * B) → M) :
    running J B f J = ∑ n, f n := by
  rw [running_eq_sum_range, Cert.BlockSum.sum_blocks, ← Fin.sum_univ_eq_sum_range (fun j => sliceSum J B f j) J]
  refine Finset.sum_congr rfl fun j _ => ?_
  unfold sliceSum
  rw [dif_pos j.isLt]

end Cert.Gcn

end
-- ==== Proof.RefPool.lean ====
/-
  The reference's pooled stage is the specification.

  The reference is read one operation at a time, at an index given by its coordinates: graph `b`, node `n`, channel `d`.
  A contraction's entry is a finite sum of products whose two factors sit at indices that share the free coordinates and
  run over the contracted one; a bias is broadcast over graphs and nodes, so its entry depends on the channel alone;
  the clamp compares with a constant whose word is the zero word, that is with `0`; the node sum starts from that same
  zero, and `0 + s = s`. Composing these readings, stage by stage, entry `(b, n, d)` of each intermediate array is
  the corresponding function of `Cert.Gcn` applied to graph `b`'s slices of the arguments, and entry `(b, c)` of the
  node sum is `Cert.Gcn.pooled`. No law of arithmetic beyond `0 + s = s` is used, so nothing has to be finite.
-/
import proofs.«144628_j41695542509689_2_alg».proof.Proof.Gen.ReferenceIdeal.Read
import proofs.«144628_j41695542509689_2_alg».proof.Proof.Spec

set_option maxRecDepth 16384

noncomputable section

open scoped BigOperators

namespace Cert.ReferenceIdeal.RefPool

open Cert.ReferenceIdeal Cert.ReferenceIdeal.Read Idealize.ShloMosaic Idealize.ShloMosaic.ValueIdx

/-! ## Where each operation reads its operands

  Each equation says: at the output index with coordinates `(b, n, d)` (or `(b, c)` for the node sum), and contracted
  or summed coordinate `k`, the operand is read at the index with the stated coordinates. -/

/-- Features times a weight matrix: the left factor keeps graph and node and runs over the contracted channel. -/
theorem lidx_v0 (b : Fin 32) (n : Fin 2048) (d : Fin 32) (k : Fin 64) :
    lidx_main_v0 (ix3 b n d) k = ix3 b n k := by
  funext a; match a with | ⟨0, _⟩ => rfl | ⟨1, _⟩ => rfl | ⟨2, _⟩ => rfl

/-- Features times a weight matrix: the weight is read at (contracted channel, output channel). -/
theorem ridx_v0 (b : Fin 32) (n : Fin 2048) (d : Fin 32) (k : Fin 64) :
    ridx_main_v0 (ix3 b n d) k = ix2 k d := by
  funext a; match a with | ⟨0, _⟩ => rfl | ⟨1, _⟩ => rfl

/-- Aggregation: the adjacency is read at (graph, node, neighbour). -/
theorem lidx_v1 (b : Fin 32) (n : Fin 2048) (d : Fin 32) (k : Fin 2048) :
    lidx_main_v1 (ix3 b n d) k = ix3 b n k := by
  funext a; match a with | ⟨0, _⟩ => rfl | ⟨1, _⟩ => rfl | ⟨2, _⟩ => rfl

/-- Aggregation: the projected features are read at (graph, neighbour, channel). -/
theorem ridx_v1 (b : Fin 32) (n : Fin 2048) (d : Fin 32) (k : Fin 2048) :
    ridx_main_v1 (ix3 b n d) k = ix3 b k d := by
  funext a; match a with | ⟨0, _⟩ => rfl | ⟨1, _⟩ => rfl | ⟨2, _⟩ => rfl

/-- The first bias, broadcast twice, is read at the channel. -/
theorem idx_v3 (b : Fin 32) (n : Fin 2048) (d : Fin 32) :
    idx_main_v2 (idx_main_v3 (ix3 b n d)) = ix1 d := by
  funext a; match a with | ⟨0, _⟩ => rfl

/-- The first layer's output times a weight matrix: the left factor keeps graph and node and runs over the contracted channel. -/
theorem lidx_v6 (b : Fin 32) (n : Fin 2048) (d : Fin 32) (k : Fin 32) :
    lidx_main_v6 (ix3 b n d) k = ix3 b n k := by
  funext a; match a with | ⟨0, _⟩ => rfl | ⟨1, _⟩ => rfl | ⟨2, _⟩ => rfl

/-- The first layer's output times a weight matrix: the weight is read at (contracted channel, output channel). -/
theorem ridx_v6 (b : Fin 32) (n : Fin 2048) (d : Fin 32) (k : Fin 32) :
    ridx_main_v6 (ix3 b n d) k = ix2 k d := by
  funext a; match a with | ⟨0, _⟩ => rfl | ⟨1, _⟩ => rfl

/-- Second aggregation: the adjacency is read at (graph, node, neighbour). -/
theorem lidx_v7 (b : Fin 32) (n : Fin 2048) (d : Fin 32) (k : Fin 2048) :
    lidx_main_v7 (ix3 b n d) k = ix3 b n k := by
  funext a; match a with | ⟨0, _⟩ => rfl | ⟨1, _⟩ => rfl | ⟨2, _⟩ => rfl

/-- Second aggregation: the projected features are read at (graph, neighbour, channel). -/
theorem ridx_v7 (b : Fin 32) (n : Fin 2048) (d : Fin 32) (k : Fin 2048) :
    ridx_main_v7 (ix3 b n d) k = ix3 b k d := by
  funext a; match a with | ⟨0, _⟩ => rfl | ⟨1, _⟩ => rfl | ⟨2, _⟩ => rfl

/-- The second bias, broadcast twice, is read at the channel. -/
theorem idx_v9 (b : Fin 32) (n : Fin 2048) (d : Fin 32) :
    idx_main_v8 (idx_main_v9 (ix3 b n d)) = ix1 d := by
  funext a; match a with | ⟨0, _⟩ => rfl

/-- The node sum's term `k` at `(b, c)` is the second layer's output at `(b, k, c)`. -/
theorem idx_v12 (b c : Fin 32) (k : Fin 2048) :
    idx_main_v12 (ix2 b c) k = ix3 b k c := by
  funext a; match a with | ⟨0, _⟩ => rfl | ⟨1, _⟩ => rfl | ⟨2, _⟩ => rfl

/-! ## The stages at coordinates -/

section Stages

variable (x0 : (⟨S32x2048x64, .f32⟩ : BufTy).Contents (Elt Ideal)) (x1 : (⟨S32x2048x2048, .f32⟩ : BufTy).Contents (Elt Ideal))
  (x2 : (⟨S64x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))

/-- The features of graph `b` times the first weight matrix. -/
theorem proj1_at (b : Fin 32) (n : Fin 2048) (d : Fin 32) :
    val_main_v0 (F := Ideal) x0 x2 (ix3 b n d)
      = Cert.Gcn.proj (fun (n : Fin 2048) (k : Fin 64) => x0 (ix3 b n k)) (fun (k : Fin 64) (d : Fin 32) => x2 (ix2 k d)) n d := by
  rw [val_main_v0_apply]
  show _ = ∑ k : Fin 64, x0 (ix3 b n k) * x2 (ix2 k d)
  refine Finset.sum_congr rfl fun k _ => ?_
  rw [lidx_v0, ridx_v0]

/-- The clamp's constant, first layer: the zero word broadcast to every index. -/
theorem clamp1_at (i : S32x2048x32.Idx) : val_main_call0_v0 (F := Ideal) i = 0 := by
  rw [val_main_call0_v0_apply, val_main_call0_cst_apply, Ideal.ofBits_def, Ideal.ofBits_zero_f32]

/-- The clamp's constant, second layer. -/
theorem clamp2_at (i : S32x2048x32.Idx) : val_main_call1_v0 (F := Ideal) i = 0 := by
  rw [val_main_call1_v0_apply, val_main_call1_cst_apply, Ideal.ofBits_def, Ideal.ofBits_zero_f32]

/-- The first layer's output for graph `b`. -/
theorem layer1_at (b : Fin 32) (n : Fin 2048) (d : Fin 32) :
    val_main_v5 (F := Ideal) x0 x1 x2 x3 (ix3 b n d)
      = Cert.Gcn.layer (fun (n m : Fin 2048) => x1 (ix3 b n m))
          (Cert.Gcn.proj (fun (n : Fin 2048) (k : Fin 64) => x0 (ix3 b n k)) (fun (k : Fin 64) (d : Fin 32) => x2 (ix2 k d)))
          (fun (d : Fin 32) => x3 (ix1 d)) n d := by
  rw [val_main_v5_apply, val_main_v4_apply, clamp1_at, val_main_v1_apply, val_main_v3_apply, val_main_v2_apply, idx_v3,
    Ideal.maximumf_def, Ideal.addf_def]
  show _ = max ((∑ m : Fin 2048, x1 (ix3 b n m)
      * Cert.Gcn.proj (fun (n : Fin 2048) (k : Fin 64) => x0 (ix3 b n k)) (fun (k : Fin 64) (d : Fin 32) => x2 (ix2 k d)) m d)
      + x3 (ix1 d)) 0
  refine congrArg (fun s => max (s + x3 (ix1 d)) 0) (Finset.sum_congr rfl fun m _ => ?_)
  rw [lidx_v1, ridx_v1, proj1_at]

/-- The first layer's output times the second weight matrix. -/
theorem proj2_at (b : Fin 32) (n : Fin 2048) (d : Fin 32) :
    val_main_v6 (F := Ideal) x0 x1 x2 x3 x4 (ix3 b n d)
      = Cert.Gcn.proj (Cert.Gcn.layer (fun (n m : Fin 2048) => x1 (ix3 b n m))
          (Cert.Gcn.proj (fun (n : Fin 2048) (k : Fin 64) => x0 (ix3 b n k)) (fun (k : Fin 64) (d : Fin 32) => x2 (ix2 k d)))
          (fun (d : Fin 32) => x3 (ix1 d))) (fun (k d : Fin 32) => x4 (ix2 k d)) n d := by
  rw [val_main_v6_apply]
  show _ = ∑ k : Fin 32, Cert.Gcn.layer (fun (n m : Fin 2048) => x1 (ix3 b n m))
          (Cert.Gcn.proj (fun (n : Fin 2048) (k : Fin 64) => x0 (ix3 b n k)) (fun (k : Fin 64) (d : Fin 32) => x2 (ix2 k d)))
          (fun (d : Fin 32) => x3 (ix1 d)) n k * x4 (ix2 k d)
  refine Finset.sum_congr rfl fun k _ => ?_
  rw [lidx_v6, ridx_v6, layer1_at]

/-- The second layer's output for graph `b`. -/
theorem hidden_at (b : Fin 32) (n : Fin 2048) (d : Fin 32) :
    val_main_v11 (F := Ideal) x0 x1 x2 x3 x4 x5 (ix3 b n d)
      = Cert.Gcn.hidden (fun (n : Fin 2048) (k : Fin 64) => x0 (ix3 b n k)) (fun (n m : Fin 2048) => x1 (ix3 b n m))
          (fun (k : Fin 64) (d : Fin 32) => x2 (ix2 k d)) (fun (d : Fin 32) => x3 (ix1 d))
          (fun (k d : Fin 32) => x4 (ix2 k d)) (fun (d : Fin 32) => x5 (ix1 d)) n d := by
  rw [val_main_v11_apply, val_main_v10_apply, clamp2_at, val_main_v7_apply, val_main_v9_apply, val_main_v8_apply, idx_v9,
    Ideal.maximumf_def, Ideal.addf_def]
  show _ = max ((∑ m : Fin 2048, x1 (ix3 b n m)
      * Cert.Gcn.proj (Cert.Gcn.layer (fun (n m : Fin 2048) => x1 (ix3 b n m))
          (Cert.Gcn.proj (fun (n : Fin 2048) (k : Fin 64) => x0 (ix3 b n k)) (fun (k : Fin 64) (d : Fin 32) => x2 (ix2 k d)))
          (fun (d : Fin 32) => x3 (ix1 d))) (fun (k d : Fin 32) => x4 (ix2 k d)) m d)
      + x5 (ix1 d)) 0
  refine congrArg (fun s => max (s + x5 (ix1 d)) 0) (Finset.sum_congr rfl fun m _ => ?_)
  rw [lidx_v7, ridx_v7, proj2_at]

end Stages

/-- Entry `(b, c)` of the reference's sum over the nodes. -/
theorem pooled_eq (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (b c : Fin 32) :
    val_main_v12 (F := Ideal) x0 x1 x2 x3 x4 x5 (ix2 b c)
      = Cert.Gcn.pooled (fun (n : Fin 2048) (k : Fin 64) => x0 (ix3 b n k)) (fun (n m : Fin 2048) => x1 (ix3 b n m))
          (fun (k : Fin 64) (d : Fin 32) => x2 (ix2 k d)) (fun (d : Fin 32) => x3 (ix1 d))
          (fun (k d : Fin 32) => x4 (ix2 k d)) (fun (d : Fin 32) => x5 (ix1 d)) c := by
  rw [val_main_v12_apply, val_main_cst_apply, Ideal.ofBits_def, Ideal.ofBits_zero_f32, zero_add]
  show _ = ∑ n : Fin 2048, Cert.Gcn.hidden (fun (n : Fin 2048) (k : Fin 64) => x0 (ix3 b n k)) (fun (n m : Fin 2048) => x1 (ix3 b n m))
          (fun (k : Fin 64) (d : Fin 32) => x2 (ix2 k d)) (fun (d : Fin 32) => x3 (ix1 d))
          (fun (k d : Fin 32) => x4 (ix2 k d)) (fun (d : Fin 32) => x5 (ix1 d)) n c
  refine Finset.sum_congr rfl fun n _ => ?_
  rw [idx_v12, hidden_at]

end Cert.ReferenceIdeal.RefPool

end
-- ==== Proof.Payloads.lean ====
/-
  The kernel body's arithmetic, read one entry at a time on the extended reals.

  Each stored value of the body is a pure function of the values loaded before it. At the exact instance the format
  changes are the identity, a matrix product into a zero accumulator is the plain sum of products over the contracted
  axis, a lane reduction is the sum over the reduced axis, and a broadcast row reads its entry at every row. So:
  * the projections are `∑ k, lhs (n, k) · rhs (k, c)`;
  * a slice of the first layer is `max (∑ m, a (r, m) · p (m, c) + b c) 0` at row `r` of the slice;
  * a slice of the second layer, summed over its rows and added to the running total, is
    `prev c + ∑ r, max (∑ m, a (r, m) · p (m, c) + b c) 0`;
  * the initial running total is zero.

  The three matrix products are plain ones (rows × contraction times contraction × columns, no batch axis): the left
  operand is read at (row, k), the right at (k, column), and the one-axis contraction index is its coordinate `k`.
-/
import proofs.«144628_j41695542509689_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Payloads

open Cert.KernelIdeal Cert.KernelIdeal.Gen Idealize.ShloMosaic Idealize.ShloMosaic.ValueIdx

/-! ### The first projection's product, [2048, 64] · [64, 32] -/

theorem projIn_lhs0 (i : S2048x32.Idx) (q : dot_S2048x64_S64x32_S2048x32_1_0_0_1_n_n.contr.Idx) : (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem projIn_lhs1 (i : S2048x32.Idx) (q : dot_S2048x64_S64x32_S2048x32_1_0_0_1_n_n.contr.Idx) : (dot_S2048x64_S64x32_S2048x32_1_0_0_1_n_n.lhsIdx i q 1).val = (q ⟨0, by decide⟩).val :=
  dot_S2048x64_S64x32_S2048x32_1_0_0_1_n_n.lhsIdx_val_of_single rfl i q
theorem projIn_rhs0 (i : S2048x32.Idx) (q : dot_S2048x64_S64x32_S2048x32_1_0_0_1_n_n.contr.Idx) : (dot_S2048x64_S64x32_S2048x32_1_0_0_1_n_n.rhsIdx i q 0).val = (q ⟨0, by decide⟩).val :=
  dot_S2048x64_S64x32_S2048x32_1_0_0_1_n_n.rhsIdx_val_of_single rfl i q
theorem projIn_rhs1 (i : S2048x32.Idx) (q : dot_S2048x64_S64x32_S2048x32_1_0_0_1_n_n.contr.Idx) : (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

/-- Entry `(n, c)` of the product into a zero accumulator: the sum over the contracted coordinate, whatever the
    operands' formats. -/
theorem projIn_entry {φ₁ φ₂ : FTy} (l : FVec Ideal S2048x64 φ₁) (r : FVec Ideal S64x32 φ₂) (n : Fin 2048) (c : Fin 32) :
    matmul dot_S2048x64_S64x32_S2048x32_1_0_0_1_n_n none l r (constant (F := Ideal) S2048x32 .f32 0x00000000#32) (ix2 n c)
      = ∑ k : Fin 64, l (ix2 n k) * r (ix2 k c) := by
  refine (Ideal.matmul_constant_zero_apply dot_S2048x64_S64x32_S2048x32_1_0_0_1_n_n none l r (ix2 n c)).trans ?_
  rw [← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 n c) ((contrEquiv1 dot_S2048x64_S64x32_S2048x32_1_0_0_1_n_n 64 rfl rfl).symm k) = ix2 n k :=
    funext fun a => Fin.ext (by
      match a with
      | ⟨0, _⟩ => exact projIn_lhs0 _ _
      | ⟨1, _⟩ => exact (projIn_lhs1 _ _).trans hk)
  have er : dot_S2048x64_S64x32_S2048x32_1_0_0_1_n_n.rhsIdx (ix2 n c) ((contrEquiv1 dot_S2048x64_S64x32_S2048x32_1_0_0_1_n_n 64 rfl rfl).symm k) = ix2 k c :=
    funext fun a => Fin.ext (by
      match a with
      | ⟨0, _⟩ => exact (projIn_rhs0 _ _).trans hk
      | ⟨1, _⟩ => exact projIn_rhs1 _ _)
  rw [el, er]

/-! ### The second projection's product, [2048, 32] · [32, 32] -/

theorem projHid_lhs0 (i : S2048x32.Idx) (q : dot_S2048x32_S32x32_S2048x32_1_0_0_1_n_n.contr.Idx) : (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl
theorem projHid_lhs1 (i : S2048x32.Idx) (q : dot_S2048x32_S32x32_S2048x32_1_0_0_1_n_n.contr.Idx) : (dot_S2048x32_S32x32_S2048x32_1_0_0_1_n_n.lhsIdx i q 1).val = (q ⟨0, by decide⟩).val :=
  dot_S2048x32_S32x32_S2048x32_1_0_0_1_n_n.lhsIdx_val_of_single rfl i q
theorem projHid_rhs0 (i : S2048x32.Idx) (q : dot_S2048x32_S32x32_S2048x32_1_0_0_1_n_n.contr.Idx) : (dot_S2048x32_S32x32_S2048x32_1_0_0_1_n_n.rhsIdx i q 0).val = (q ⟨0, by decide⟩).val :=
  dot_S2048x32_S32x32_S2048x32_1_0_0_1_n_n.rhsIdx_val_of_single rfl i q
theorem projHid_rhs1 (i : S2048x32.Idx) (q : dot_S2048x32_S32x32_S2048x32_1_0_0_1_n_n.contr.Idx) : (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

/-- Entry `(n, c)` of the product into a zero accumulator: the sum over the contracted coordinate, whatever the
    operands' formats. -/
theorem projHid_entry {φ₁ φ₂ : FTy} (l : FVec Ideal S2048x32 φ₁) (r : FVec Ideal S32x32 φ₂) (n : Fin 2048) (c : Fin 32) :
    matmul dot_S2048x32_S32x32_S2048x32_1_0_0_1_n_n none l r (constant (F := Ideal) S2048x32 .f32 0x00000000#32) (ix2 n c)
      = ∑ k : Fin 32, l (ix2 n k) * r (ix2 k c) := by
  refine (Ideal.matmul_constant_zero_apply dot_S2048x32_S32x32_S2048x32_1_0_0_1_n_n none l r (ix2 n c)).trans ?_
  rw [← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 n c) ((contrEquiv1 dot_S2048x32_S32x32_S2048x32_1_0_0_1_n_n 32 rfl rfl).symm k) = ix2 n k :=
    funext fun a => Fin.ext (by
      match a with
      | ⟨0, _⟩ => exact projHid_lhs0 _ _
      | ⟨1, _⟩ => exact (projHid_lhs1 _ _).trans hk)
  have er : dot_S2048x32_S32x32_S2048x32_1_0_0_1_n_n.rhsIdx (ix2 n c) ((contrEquiv1 dot_S2048x32_S32x32_S2048x32_1_0_0_1_n_n 32 rfl rfl).symm k) = ix2 k c :=
    funext fun a => Fin.ext (by
      match a with
      | ⟨0, _⟩ => exact (projHid_rhs0 _ _).trans hk
      | ⟨1, _⟩ => exact projHid_rhs1 _ _)
  rw [el, er]

/-! ### The aggregation's product over a slice of 256 rows, [256, 2048] · [2048, 32] -/

theorem aggr_lhs0 (i : S256x32.Idx) (q : dot_S256x2048_S2048x32_S256x32_1_0_0_1_n_n.contr.Idx) : (dot_S256x2048_S2048x32_S256x32_1_0_0_1_n_n.lhsIdx i q 0).val = (i 0).val := by
  unfold DotDims.lhsIdx
  rw [dif_neg (show ¬(0 : Fin S256x2048.rank) ∈ dot_S256x2048_S2048x32_S256x32_1_0_0_1_n_n.lhsBatch by decide),
    dif_pos (show (0 : Fin S256x2048.rank) ∈ dot_S256x2048_S2048x32_S256x32_1_0_0_1_n_n.lhsNonContracting by decide)]
  rfl
theorem aggr_lhs1 (i : S256x32.Idx) (q : dot_S256x2048_S2048x32_S256x32_1_0_0_1_n_n.contr.Idx) : (dot_S256x2048_S2048x32_S256x32_1_0_0_1_n_n.lhsIdx i q 1).val = (q ⟨0, by decide⟩).val :=
  dot_S256x2048_S2048x32_S256x32_1_0_0_1_n_n.lhsIdx_val_of_single rfl i q
theorem aggr_rhs0 (i : S256x32.Idx) (q : dot_S256x2048_S2048x32_S256x32_1_0_0_1_n_n.contr.Idx) : (dot_S256x2048_S2048x32_S256x32_1_0_0_1_n_n.rhsIdx i q 0).val = (q ⟨0, by decide⟩).val :=
  dot_S256x2048_S2048x32_S256x32_1_0_0_1_n_n.rhsIdx_val_of_single rfl i q
theorem aggr_rhs1 (i : S256x32.Idx) (q : dot_S256x2048_S2048x32_S256x32_1_0_0_1_n_n.contr.Idx) : (dot_S256x2048_S2048x32_S256x32_1_0_0_1_n_n.rhsIdx i q 1).val = (i 1).val := by
  unfold DotDims.rhsIdx
  rw [dif_neg (show ¬(1 : Fin S2048x32.rank) ∈ dot_S256x2048_S2048x32_S256x32_1_0_0_1_n_n.rhsBatch by decide),
    dif_pos (show (1 : Fin S2048x32.rank) ∈ dot_S256x2048_S2048x32_S256x32_1_0_0_1_n_n.rhsNonContracting by decide)]
  rfl

/-- Entry `(n, c)` of the product into a zero accumulator: the sum over the contracted coordinate, whatever the
    operands' formats. -/
theorem aggr_entry {φ₁ φ₂ : FTy} (l : FVec Ideal S256x2048 φ₁) (r : FVec Ideal S2048x32 φ₂) (n : Fin 256) (c : Fin 32) :
    matmul dot_S256x2048_S2048x32_S256x32_1_0_0_1_n_n none l r (constant (F := Ideal) S256x32 .f32 0x00000000#32) (ix2 n c)
      = ∑ k : Fin 2048, l (ix2 n k) * r (ix2 k c) := by
  refine (Ideal.matmul_constant_zero_apply dot_S256x2048_S2048x32_S256x32_1_0_0_1_n_n none l r (ix2 n c)).trans ?_
  rw [← Equiv.sum_comp (contrEquiv1 dot_S256x2048_S2048x32_S256x32_1_0_0_1_n_n 2048 rfl rfl).symm]
  refine Finset.sum_congr rfl fun k _ => ?_
  have hk := contrEquiv1_symm_val dot_S256x2048_S2048x32_S256x32_1_0_0_1_n_n 2048 rfl rfl k
  have el : dot_S256x2048_S2048x32_S256x32_1_0_0_1_n_n.lhsIdx (ix2 n c) ((contrEquiv1 dot_S256x2048_S2048x32_S256x32_1_0_0_1_n_n 2048 rfl rfl).symm k) = ix2 n k :=
    funext fun a => Fin.ext (by
      match a with
      | ⟨0, _⟩ => exact aggr_lhs0 _ _
      | ⟨1, _⟩ => exact (aggr_lhs1 _ _).trans hk)
  have er : dot_S256x2048_S2048x32_S256x32_1_0_0_1_n_n.rhsIdx (ix2 n c) ((contrEquiv1 dot_S256x2048_S2048x32_S256x32_1_0_0_1_n_n 2048 rfl rfl).symm k) = ix2 k c :=
    funext fun a => Fin.ext (by
      match a with
      | ⟨0, _⟩ => exact (aggr_rhs0 _ _).trans hk
      | ⟨1, _⟩ => exact aggr_rhs1 _ _)
  rw [el, er]

/-! ### The stored values -/

/-- The first projection: entry `(n, c)` of `x · W₁` for one graph. -/
theorem pay3_apply (v0 : Vec Ideal S1x2048x64 .f32) (v3 : Vec Ideal S64x32 .f32) (n : Fin 2048) (c : Fin 32) :
    k0_pay3 (F := Ideal) v0 v3 (ix2 n c) = ∑ k : Fin 64, v0 (ix3 (0 : Fin 1) n k) * v3 (ix2 k c) := by
  unfold k0_pay3
  refine (congrFun (shapeCast_self _ _) (ix2 n c)).trans ?_
  refine (projIn_entry _ _ n c).trans ?_
  refine Finset.sum_congr rfl fun k _ => ?_
  exact congrArg (· * v3 (ix2 k c)) (shapeCast_1ab_ab_apply v0 _ n k)

/-! ### One layer on a slice of rows: aggregate, add the bias row, clamp below at zero -/

/-- Row `r`, column `c` of a layer on a slice: the slice's rows of the adjacency (a `[1, 256, 2048]` block read
    without its unit axis) times the projected features `p`, plus the bias row `b` read at every row, clamped below
    at zero. The projected features may be held in either format. -/
theorem layer_entry {φ : FTy} (p : FVec Ideal S2048x32 φ) (b : FVec Ideal S1x32 .f32) (v36 : Vec Ideal S1x256x2048 .f32)
    (hc : S1x256x2048.ShapeCasts S256x2048) (ht : FTy.bits .bf16 < FTy.bits .f32) (hb : S1x32.Broadcasts S256x32)
    (r : Fin 256) (c : Fin 32) :
    maximumf
        (addf
          (matmul dot_S256x2048_S2048x32_S256x32_1_0_0_1_n_n none (truncf .bf16 (shapeCast S256x2048 v36 hc) ht) p
            (constant (F := Ideal) S256x32 .f32 0x00000000#32))
          (broadcastTo S256x32 b hb))
        (broadcast S256x32 (Scalar.ofBits (F := Ideal) .f32 0x00000000#32)) (ix2 r c)
      = max (∑ m : Fin 2048, v36 (ix3 (0 : Fin 1) r m) * p (ix2 m c) + b (ix2 (0 : Fin 1) c)) 0 := by
  refine (maximumf_apply _ _ _).trans (congrArg₂ max ?_ Ideal.ofBits_zero_f32)
  refine (addf_apply _ _ _).trans (congrArg₂ (· + ·) ?_ (broadcastTo_1b_ab_apply b hb r c))
  refine (aggr_entry _ _ r c).trans (Finset.sum_congr rfl fun m _ => ?_)
  exact congrArg (· * p (ix2 m c)) (shapeCast_1ab_ab_apply v36 hc r m)

/-- A slice of 256 rows of the first layer: row `r` of the slice, column `c`. -/
theorem pay4_apply (v9 : Vec Ideal S2048x32 .f32) (v11 : Vec Ideal S1x32 .f32) (v36 : Vec Ideal S1x256x2048 .f32)
    (r : Fin 256) (c : Fin 32) :
    k0_pay4 (F := Ideal) v9 v11 v36 (ix2 r c)
      = max (∑ m : Fin 2048, v36 (ix3 (0 : Fin 1) r m) * v9 (ix2 m c) + v11 (ix2 (0 : Fin 1) c)) 0 := by
  unfold k0_pay4
  refine (congrFun (shapeCast_self _ _) (ix2 r c)).trans ?_
  refine (layer_entry _ _ v36 _ _ _ r c).trans ?_
  exact congrArg (fun t => max (∑ m : Fin 2048, v36 (ix3 (0 : Fin 1) r m) * v9 (ix2 m c) + t) 0)
    (congrFun (shapeCast_self v11 _) (ix2 (0 : Fin 1) c))

/-- The second projection: entry `(n, c)` of `h · W₂`. -/
theorem pay5_apply (v14 : Vec Ideal S2048x32 .f32) (v16 : Vec Ideal S32x32 .f32) (n : Fin 2048) (c : Fin 32) :
    k0_pay5 (F := Ideal) v14 v16 (ix2 n c) = ∑ k : Fin 32, v14 (ix2 n k) * v16 (ix2 k c) := by
  unfold k0_pay5
  refine (congrFun (shapeCast_self _ _) (ix2 n c)).trans ?_
  exact projHid_entry _ _ n c

/-- The projected features handed to the second loop are the loaded ones (a format change). -/
theorem pay6_apply (v22 : Vec Ideal S2048x32 .f32) (j : S2048x32.Idx) : k0_pay6 (F := Ideal) v22 j = v22 j := rfl

/-- The bias row handed to the second loop is the loaded one. -/
theorem pay7_apply (v24 : Vec Ideal S1x32 .f32) (j : S1x32.Idx) : k0_pay7 (F := Ideal) v24 j = v24 j := by
  unfold k0_pay7
  exact congrFun (shapeCast_self v24 _) j

/-- The running total starts at zero. -/
theorem pay1_pay8_apply (j : S1x1x32.Idx) : k0_pay1 (F := Ideal) (k0_pay8 (F := Ideal)) j = 0 := by
  unfold k0_pay1 k0_pay8
  exact Ideal.ofBits_zero_f32

/-! ### The sum over a slice's rows -/

/-- The lane reduction over the rows of a `[256, 32]` vector, read at column `c`: the sum over the rows. -/
theorem rowsum_entry (src : FVec Ideal S256x32 .f32) (h : S256x32.Reduces [0] S32) (hφ : FKind.Formats .f32)
    (hacc : (0x00000000#32 : BitVec 32) = 0x00000000#32) (c : Fin 32) :
    multiReduction (F := Ideal) .add [0] S32 src 0x00000000#32 h hφ hacc (ix1 c) = ∑ r : Fin 256, src (ix2 r c) := by
  refine (Ideal.multiReduction_add_single src 0x00000000#32 h hφ hacc (ix1 c)).trans ?_
  refine Finset.sum_congr rfl fun r _ => ?_
  exact congrArg src (funext fun a => Fin.ext (by match a with | ⟨0, _⟩ => rfl | ⟨1, _⟩ => rfl))

/-- One trip of the second loop: the running total plus the slice's second-layer rows summed. -/
theorem pay2_apply (v23 : FVec Ideal S2048x32 .bf16) (v25 : FVec Ideal S1x32 .f32) (v36 : Vec Ideal S1x256x2048 .f32)
    (v44 : Vec Ideal S1x1x32 .f32) (c : Fin 32) :
    k0_pay2 (F := Ideal) v23 v25 v36 v44 (ix3 (0 : Fin 1) (0 : Fin 1) c)
      = v44 (ix3 (0 : Fin 1) (0 : Fin 1) c)
        + ∑ r : Fin 256, max (∑ m : Fin 2048, v36 (ix3 (0 : Fin 1) r m) * v23 (ix2 m c) + v25 (ix2 (0 : Fin 1) c)) 0 := by
  unfold k0_pay2
  refine (shapeCast_ab_1ab_apply _ _ (0 : Fin 1) (0 : Fin 1) c).trans ?_
  refine (addf_apply _ _ _).trans (congrArg₂ (· + ·) (shapeCast_1ab_ab_apply v44 _ (0 : Fin 1) c) ?_)
  refine (shapeCast_a_1a_apply _ _ (0 : Fin 1) c).trans ?_
  refine (rowsum_entry _ _ _ _ c).trans (Finset.sum_congr rfl fun r _ => ?_)
  exact layer_entry v23 v25 v36 _ _ _ r c

end Cert.KernelIdeal.Payloads

end
-- ==== Proof.LoopValue.lean ====
/-
  What the two loops compute, on the extended reals.

  The adjacency block is walked in eight slices of 256 consecutive rows: row `r` of slice `k` is row `256 k + r` of the
  block. After the first loop, row `n` of the scratch buffer is the first layer at node `n`: it lies in tile `n / 256`
  at local row `n mod 256`, and no other tile touches it. After `k` trips of the second loop the output row holds what
  it held before the loop plus the second layer's rows of the first `k` slices summed.
-/
import proofs.«144628_j41695542509689_2_alg».proof.Proof.Trips
import proofs.«144628_j41695542509689_2_alg».proof.Proof.Payloads
import proofs.«144628_j41695542509689_2_alg».proof.Proof.Spec
import Idealize.ShloMosaic.Lib.WritesUnit
import Idealize.ShloMosaic.Lib.Pipeline.Value
import Idealize.ShloMosaic.Lib.ValueIdx

set_option maxRecDepth 16384

noncomputable section

open scoped BigOperators

namespace Cert.KernelIdeal.LoopValue

open Cert.KernelIdeal Cert.KernelIdeal.Gen Cert.KernelIdeal.Trips Cert.KernelIdeal.Payloads
open Idealize.ShloMosaic Idealize.ShloMosaic.ValueIdx

/-- Row `r` of slice `k`, as the first loop loads it, is row `256 k + r` of the block. -/
theorem slice1_apply (arg2 : Memref sig .tc .vmem S1x2048x2048 .f32) (X : BufTy.Contents (Elt Ideal) arg2.view.ty)
    (k : Fin k0_t1_loop.trips) (r : Fin 256) (m n : Fin 2048) (hn : n.val = 256 * k.val + r.val) :
    slice1 (F := Ideal) arg2 X k (ix3 (0 : Fin 1) r m) = arg2.view.read (Elt Ideal) X (ix3 (0 : Fin 1) n m) := by
  show arg2.view.read (Elt Ideal) X _ = _
  refine congrArg (arg2.view.read (Elt Ideal) X) (funext fun a => Fin.ext ?_)
  match a with
  | ⟨0, _⟩ => rw [LoadRect.idx_apply]; dsimp only [Rect.unit]; rw [k0_off1_eq]; rfl
  | ⟨1, _⟩ => rw [LoadRect.idx_apply]; dsimp only [Rect.unit]; rw [k0_off1_eq]; show 256 * k.val + 1 * r.val = n.val; omega
  | ⟨2, _⟩ => rw [LoadRect.idx_apply]; dsimp only [Rect.unit]; rw [k0_off1_eq]; show 0 + 1 * m.val = m.val; omega

/-- The same for the second loop's slices. -/
theorem slice2_apply (arg2 : Memref sig .tc .vmem S1x2048x2048 .f32) (X : BufTy.Contents (Elt Ideal) arg2.view.ty)
    (k : Fin k0_t2_loop.trips) (r : Fin 256) (m n : Fin 2048) (hn : n.val = 256 * k.val + r.val) :
    slice2 (F := Ideal) arg2 X k (ix3 (0 : Fin 1) r m) = arg2.view.read (Elt Ideal) X (ix3 (0 : Fin 1) n m) := by
  show arg2.view.read (Elt Ideal) X _ = _
  refine congrArg (arg2.view.read (Elt Ideal) X) (funext fun a => Fin.ext ?_)
  match a with
  | ⟨0, _⟩ => rw [LoadRect.idx_apply]; dsimp only [Rect.unit]; rw [k0_off3_eq]; rfl
  | ⟨1, _⟩ => rw [LoadRect.idx_apply]; dsimp only [Rect.unit]; rw [k0_off3_eq]; show 256 * k.val + 1 * r.val = n.val; omega
  | ⟨2, _⟩ => rw [LoadRect.idx_apply]; dsimp only [Rect.unit]; rw [k0_off3_eq]; show 0 + 1 * m.val = m.val; omega

/-! ## The first loop: the scratch buffer after it, read at a row -/

/-- After the first loop, row `n`, column `d` of the scratch buffer — through any view of it and over any prior
    contents — is the layer at node `n`: `max (∑ m, a (n, m) · p (m, d) + b d) 0`, with `a` the adjacency block, `p` the
    projected features and `b` the bias row the loop was entered with. -/
theorem read_tiles {sig' : RefSig} {κ : Kind} {sp : Space} (v : View sig' κ sp S2048x32 .f32) (f : v.ty.Contents (Elt Ideal))
    (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v9 : Vec Ideal S2048x32 .f32) (v11 : Vec Ideal S1x32 .f32) (X_arg2 : BufTy.Contents (Elt Ideal) arg2.view.ty) (n : Fin 2048) (d : Fin 32) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 v9 v11 X_arg2 k0_t1_loop.trips)) (ix2 n d)
      = max (∑ m : Fin 2048, arg2.view.read (Elt Ideal) X_arg2 (ix3 (0 : Fin 1) n m) * v9 (ix2 m d) + v11 (ix2 (0 : Fin 1) d)) 0 := by
  have hn : n.val < 2048 := n.isLt
  have hi : n.val / 256 < k0_t1_loop.trips := by rw [trips1]; omega
  have hr : n.val % 256 < 256 := Nat.mod_lt _ (by decide)
  rw [pb1_eq_tiles 𝒱 c bd i arg1 harg1 arg2 harg2 arg3 harg3 arg4 harg4 arg5 harg5 arg6 harg6 arg7 harg7 arg8 harg8 arg9 harg9 v9 v11 X_arg2 k0_t1_loop.trips le_rfl]
  refine (View.read_tilePieces v f S256x32.size (fun k => k0_off2 k) (fun k => k0_off2_inb k) (tile1 arg2 v9 v11 X_arg2)
    k0_t1_loop.trips le_rfl (ix2 n d) ⟨n.val / 256, hi⟩ hi (ix2 (⟨n.val % 256, hr⟩ : Fin 256) d) ?_ (0 : Fin 2) ?_).trans ?_
  · intro a
    show ((ix2 n d : S2048x32.Idx) a).val = k0_off2 ⟨n.val / 256, hi⟩ a + ((ix2 (⟨n.val % 256, hr⟩ : Fin 256) d : (⟨2, ![256, 32]⟩ : Shape).Idx) a).val
    rw [k0_off2_eq]
    match a with
    | ⟨0, _⟩ => show n.val = 256 * (n.val / 256) + n.val % 256; omega
    | ⟨1, _⟩ => show d.val = 0 + d.val; omega
  · intro i' hne
    show n.val < k0_off2 i' (0 : Fin 2) ∨ k0_off2 i' (0 : Fin 2) + 256 ≤ n.val
    rw [k0_off2_eq]
    show n.val < 256 * i'.val ∨ 256 * i'.val + 256 ≤ n.val
    have : i'.val ≠ n.val / 256 := fun h => hne (Fin.ext h)
    omega
  · refine (pay4_apply v9 v11 (slice1 arg2 X_arg2 ⟨n.val / 256, hi⟩) ⟨n.val % 256, hr⟩ d).trans ?_
    refine congrArg (fun t => max (t + v11 (ix2 (0 : Fin 1) d)) 0) (Finset.sum_congr rfl fun m _ => ?_)
    exact congrArg (· * v9 (ix2 m d)) (slice1_apply arg2 X_arg2 ⟨n.val / 256, hi⟩ ⟨n.val % 256, hr⟩ m n (by
      show n.val = 256 * (n.val / 256) + n.val % 256; omega))

/-! ## The second loop: the output row after `k` trips -/

/-- The loop makes eight trips. -/
theorem trips2 : k0_t2_loop.trips = 8 := by decide

/-- A store of the whole output row, newest in a list of stores, is what the row then reads. -/
theorem read_row_cons {sig' : RefSig} {κ : Kind} {sp : Space} (v : View sig' κ sp S1x1x32 .f32) (f : v.ty.Contents (Elt Ideal))
    (w : S1x1x32.Idx → Elt Ideal .f32) (L : List (View.Piece (Elt Ideal) S1x1x32 .f32)) (y : S1x1x32.Idx) :
    v.read (Elt Ideal) (v.writes (Elt Ideal) f
      ((⟨Rect.unit (s := S1x1x32) ![0, 0, 0] S1x1x32.size inb_S1x1x32_S1x1x32_0_0_0, w⟩ : View.Piece (Elt Ideal) S1x1x32 .f32) :: L)) y = w y := by
  have hz : (![0, 0, 0] : Fin S1x1x32.rank → ℕ) = fun _ => 0 := by
    funext a; match a with | ⟨0, _⟩ => rfl | ⟨1, _⟩ => rfl | ⟨2, _⟩ => rfl
  refine (View.read_writes_apply_eq_canon v f y _
    ⟨(⟨Rect.unit (s := S1x1x32) ![0, 0, 0] S1x1x32.size inb_S1x1x32_S1x1x32_0_0_0, w⟩ : View.Piece (Elt Ideal) S1x1x32 .f32),
      List.mem_cons_self, View.mem_set_unit_zero hz inb_S1x1x32_S1x1x32_0_0_0 y⟩).trans ?_
  exact congrFun (View.canon_cons_unit_zero hz inb_S1x1x32_S1x1x32_0_0_0 w L) y

/-- The second layer at node `n`, column `d`, over the block the loop reads and the vectors it was entered with. -/
abbrev node2 (arg2 : Memref sig .tc .vmem S1x2048x2048 .f32) (v23 : FVec Ideal S2048x32 .bf16) (v25 : FVec Ideal S1x32 .f32)
    (X : BufTy.Contents (Elt Ideal) arg2.view.ty) (d : Fin 32) (n : Fin (8 * 256)) : EReal :=
  max (∑ m : Fin 2048, arg2.view.read (Elt Ideal) X (ix3 (0 : Fin 1) (⟨n.val, n.isLt⟩ : Fin 2048) m) * v23 (ix2 m d) + v25 (ix2 (0 : Fin 1) d)) 0

/-- One more trip: through any view, over any prior contents and whatever was stored before the loop, the row after
    trip `k` is the row after the trips before it (read where the loop reads it) plus slice `k`'s rows summed. -/
theorem row_succ {sig' : RefSig} {κ : Kind} {sp : Space} (v : View sig' κ sp S1x1x32 .f32) (f : v.ty.Contents (Elt Ideal))
    (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v23 : FVec Ideal S2048x32 .bf16) (v25 : FVec Ideal S1x32 .f32) (X_arg2 : BufTy.Contents (Elt Ideal) arg2.view.ty) (G_arg7 : BufTy.Contents (Elt Ideal) arg7.view.ty)
    (rest : List (View.Piece (Elt Ideal) S1x1x32 .f32)) (d : Fin 32) (k : ℕ) (hk : k < k0_t2_loop.trips) :
    v.read (Elt Ideal) (v.writes (Elt Ideal) f
        (pb_k0_t2 (F := Ideal) 𝒱 c bd i arg1 harg1 arg2 harg2 arg3 harg3 arg4 harg4 arg5 harg5 arg6 harg6 arg7 harg7 arg8 harg8 arg9 harg9 v23 v25 X_arg2 G_arg7 (k + 1) ++ rest)) (ix3 (0 : Fin 1) (0 : Fin 1) d)
      = arg7.view.read (Elt Ideal) (arg7.view.writes (Elt Ideal) G_arg7
            (pb_k0_t2 (F := Ideal) 𝒱 c bd i arg1 harg1 arg2 harg2 arg3 harg3 arg4 harg4 arg5 harg5 arg6 harg6 arg7 harg7 arg8 harg8 arg9 harg9 v23 v25 X_arg2 G_arg7 k)) (ix3 (0 : Fin 1) (0 : Fin 1) d)
        + Cert.Gcn.sliceSum 8 256 (node2 arg2 v23 v25 X_arg2 d) k := by
  have hk8 : k < 8 := by rw [← trips2]; exact hk
  have hs := pb_k0_t2_succ (F := Ideal) 𝒱 c bd i arg1 harg1 arg2 harg2 arg3 harg3 arg4 harg4 arg5 harg5 arg6 harg6 arg7 harg7 arg8 harg8 arg9 harg9 v23 v25 X_arg2 G_arg7 ⟨k, hk⟩
  rw [show pb_k0_t2 (F := Ideal) 𝒱 c bd i arg1 harg1 arg2 harg2 arg3 harg3 arg4 harg4 arg5 harg5 arg6 harg6 arg7 harg7 arg8 harg8 arg9 harg9 v23 v25 X_arg2 G_arg7 (k + 1) = _ from hs, tripL2_eq, List.cons_append,
    List.nil_append]
  refine (read_row_cons v f _ _ _).trans ?_
  refine (pay2_apply v23 v25 _ _ d).trans ?_
  refine congrArg₂ (· + ·) ?_ ?_
  · show arg7.view.read (Elt Ideal) _ _ = _
    refine congrArg (arg7.view.read (Elt Ideal) _) (funext fun a => Fin.ext ?_)
    match a with
    | ⟨0, _⟩ => rfl
    | ⟨1, _⟩ => rfl
    | ⟨2, _⟩ => rw [LoadRect.idx_apply]; dsimp only [Rect.unit]; show 0 + 1 * d.val = d.val; omega
  · unfold Cert.Gcn.sliceSum
    rw [dif_pos hk8]
    refine Finset.sum_congr rfl fun r _ => ?_
    refine congrArg (fun t => max (t + v25 (ix2 (0 : Fin 1) d)) 0) (Finset.sum_congr rfl fun m _ => ?_)
    exact congrArg (· * v23 (ix2 m d)) (slice2_apply arg2 X_arg2 ⟨k, hk⟩ r m _ (by
      show (finProdFinEquiv ((⟨k, hk8⟩ : Fin 8), r)).val = 256 * k + r.val
      rw [Cert.BlockSum.finProdFinEquiv_val]; show r.val + 256 * k = 256 * k + r.val; omega))

/-- After `k` trips the row holds what it held at loop entry plus the first `k` slices' rows summed. -/
theorem row_after (𝒱 : Variants) (c : Dev nD) (bd : Option 𝒱.V) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (v23 : FVec Ideal S2048x32 .bf16) (v25 : FVec Ideal S1x32 .f32) (X_arg2 : BufTy.Contents (Elt Ideal) arg2.view.ty) (G_arg7 : BufTy.Contents (Elt Ideal) arg7.view.ty) (d : Fin 32) :
    ∀ k, k ≤ k0_t2_loop.trips →
      arg7.view.read (Elt Ideal) (arg7.view.writes (Elt Ideal) G_arg7
          (pb_k0_t2 (F := Ideal) 𝒱 c bd i arg1 harg1 arg2 harg2 arg3 harg3 arg4 harg4 arg5 harg5 arg6 harg6 arg7 harg7 arg8 harg8 arg9 harg9 v23 v25 X_arg2 G_arg7 k)) (ix3 (0 : Fin 1) (0 : Fin 1) d)
        = arg7.view.read (Elt Ideal) G_arg7 (ix3 (0 : Fin 1) (0 : Fin 1) d)
          + Cert.Gcn.running 8 256 (node2 arg2 v23 v25 X_arg2 d) k
  | 0, _ => by
    show arg7.view.read (Elt Ideal) G_arg7 _ = _ + 0
    rw [add_zero]
  | k + 1, hk => by
    have h := row_succ arg7.view G_arg7 𝒱 c bd i arg1 harg1 arg2 harg2 arg3 harg3 arg4 harg4 arg5 harg5 arg6 harg6 arg7 harg7 arg8 harg8 arg9 harg9 v23 v25 X_arg2 G_arg7 [] d k hk
    rw [List.append_nil] at h
    rw [h, row_after 𝒱 c bd i arg1 harg1 arg2 harg2 arg3 harg3 arg4 harg4 arg5 harg5 arg6 harg6 arg7 harg7 arg8 harg8 arg9 harg9 v23 v25 X_arg2 G_arg7 d k (Nat.le_of_succ_le hk), Cert.Gcn.running, add_assoc]

end Cert.KernelIdeal.LoopValue

end
-- ==== Proof.BodyValue.lean ====
/-
  What one grid point leaves in its output block: the pooled vector of the point's graph.

  The body computes `x · W₁` into a scratch buffer, fills a second scratch buffer with the first layer tile by tile,
  computes its product with `W₂` into the first buffer again, zeroes the output row and adds to it, slice by slice, the
  second layer's rows summed. Each value the body passes along is read here at an entry: the projections are sums of
  products, the first layer is read off the eight tiles at a row, and the eight partial sums of the second layer's rows,
  added to zero one after the other, are the sum over all nodes.
-/
import proofs.«144628_j41695542509689_2_alg».proof.Proof.KernelIdealFrameP
import proofs.«144628_j41695542509689_2_alg».proof.Proof.LoopValue
import proofs.«144628_j41695542509689_2_alg».proof.Proof.Spec
import Idealize.ShloMosaic.Lib.ValueIdx

set_option maxRecDepth 16384

noncomputable section

open scoped BigOperators

namespace Cert.KernelIdeal.BodyValue

open Cert.KernelIdeal Cert.KernelIdeal.Gen Cert.KernelIdeal.GenP Cert.KernelIdeal.Trips Cert.KernelIdeal.Payloads
open Cert.KernelIdeal.LoopValue Idealize.ShloMosaic Idealize.ShloMosaic.ValueIdx

/-- A whole-buffer load of a buffer holding `x` reads `x`. -/
theorem readAt_unread {s : Shape} {m : Memref sig .tc .vmem s .f32} (hm : m.IsWhole) (x : s.Idx → Elt Ideal .f32)
    {off : Fin s.rank → ℕ} (hz : off = fun _ => 0) (inb : ∀ a, off a + s.size a ≤ s.size a) :
    View.readAt (Elt Ideal) m.view (Rect.unit off s.size inb).toLoadRect (hm.unread x) = x := by
  rw [View.readAt_eq_ld, hm.read_unread, View.ld_unit_zero hz]

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- The node features as the body loads them. -/
abbrev featIn (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S1x2048x64 .f32 :=
  View.readAt (Elt Ideal) arg1.view (Rect.unit (s := S1x2048x64) ![0, 0, 0] S1x2048x64.size inb_S1x2048x64_S1x2048x64_0_0_0).toLoadRect (harg1.unread x0)
/-- The first weight matrix as loaded. -/
abbrev wIn (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S64x32 .f32 :=
  View.readAt (Elt Ideal) arg3.view (Rect.unit (s := S64x32) ![0, 0] S64x32.size inb_S64x32_S64x32_0_0).toLoadRect (harg3.unread x2)
/-- The store of `x · W₁` into the first scratch buffer. -/
abbrev pieceProj1 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : View.Piece (Elt Ideal) S2048x32 .f32 :=
  ⟨(Rect.unit (s := S2048x32) ![0, 0] S2048x32.size inb_S2048x32_S2048x32_0_0), k0_pay3 (featIn c i arg1 harg1 arg2 harg2 arg3 harg3 arg4 harg4 arg5 harg5 arg6 harg6 arg7 harg7 arg8 harg8 arg9 harg9 x0 x1 x2 x3 x4 x5) (wIn c i arg1 harg1 arg2 harg2 arg3 harg3 arg4 harg4 arg5 harg5 arg6 harg6 arg7 harg7 arg8 harg8 arg9 harg9 x0 x1 x2 x3 x4 x5)⟩
/-- `x · W₁` read back. -/
abbrev proj1 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S2048x32 .f32 :=
  arg8.view.readCov [pieceProj1 c i arg1 harg1 arg2 harg2 arg3 harg3 arg4 harg4 arg5 harg5 arg6 harg6 arg7 harg7 arg8 harg8 arg9 harg9 x0 x1 x2 x3 x4 x5] (Rect.unit (s := S2048x32) ![0, 0] S2048x32.size inb_S2048x32_S2048x32_0_0).toLoadRect
/-- The first bias row as loaded. -/
abbrev bias1 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S1x32 .f32 :=
  View.readAt (Elt Ideal) arg4.view (Rect.unit (s := S1x32) ![0, 0] S1x32.size inb_S1x32_S1x32_0_0).toLoadRect (harg4.unread x3)
/-- The first layer, read back whole from the second scratch buffer after the first loop. -/
abbrev layer1 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S2048x32 .f32 :=
  View.readAt (Elt Ideal) arg9.view (Rect.unit (s := S2048x32) ![0, 0] S2048x32.size inb_S2048x32_S2048x32_0_0).toLoadRect
    (arg9.view.writes (Elt Ideal) arg9.view.junk
      (pb_k0_t1 (F := Ideal) Variants.none c none i arg1 harg1 arg2 harg2 arg3 harg3 arg4 harg4 arg5 harg5 arg6 harg6 arg7 harg7 arg8 harg8 arg9 harg9 (proj1 c i arg1 harg1 arg2 harg2 arg3 harg3 arg4 harg4 arg5 harg5 arg6 harg6 arg7 harg7 arg8 harg8 arg9 harg9 x0 x1 x2 x3 x4 x5) (bias1 c i arg1 harg1 arg2 harg2 arg3 harg3 arg4 harg4 arg5 harg5 arg6 harg6 arg7 harg7 arg8 harg8 arg9 harg9 x0 x1 x2 x3 x4 x5) (harg2.unread x1) k0_t1_loop.trips))
/-- The second weight matrix as loaded. -/
abbrev w2In (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : Vec Ideal S32x32 .f32 :=
  View.readAt (Elt Ideal) arg5.view (Rect.unit (s := S32x32) ![0, 0] S32x32.size inb_S32x32_S32x32_0_0).toLoadRect (harg5.unread x4)
/-- The store of the first layer times `W₂` into the first scratch buffer. -/
abbrev pieceProj2 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : View.Piece (Elt Ideal) S2048x32 .f32 :=
  ⟨(Rect.unit (s := S2048x32) ![0, 0] S2048x32.size inb_S2048x32_S2048x32_0_0), k0_pay5 (layer1 c i arg1 harg1 arg2 harg2 arg3 harg3 arg4 harg4 arg5 harg5 arg6 harg6 arg7 harg7 arg8 harg8 arg9 harg9 x0 x1 x2 x3 x4 x5) (w2In c i arg1 harg1 arg2 harg2 arg3 harg3 arg4 harg4 arg5 harg5 arg6 harg6 arg7 harg7 arg8 harg8 arg9 harg9 x0 x1 x2 x3 x4 x5)⟩
/-- That product read back, as the second loop is entered with it. -/
abbrev proj2 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : FVec Ideal S2048x32 .bf16 :=
  k0_pay6 (arg8.view.readCov [pieceProj2 c i arg1 harg1 arg2 harg2 arg3 harg3 arg4 harg4 arg5 harg5 arg6 harg6 arg7 harg7 arg8 harg8 arg9 harg9 x0 x1 x2 x3 x4 x5, pieceProj1 c i arg1 harg1 arg2 harg2 arg3 harg3 arg4 harg4 arg5 harg5 arg6 harg6 arg7 harg7 arg8 harg8 arg9 harg9 x0 x1 x2 x3 x4 x5] (Rect.unit (s := S2048x32) ![0, 0] S2048x32.size inb_S2048x32_S2048x32_0_0).toLoadRect)
/-- The second bias row, as the second loop is entered with it. -/
abbrev bias2 (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : FVec Ideal S1x32 .f32 :=
  k0_pay7 (View.readAt (Elt Ideal) arg6.view (Rect.unit (s := S1x32) ![0, 0] S1x32.size inb_S1x32_S1x32_0_0).toLoadRect (harg6.unread x5))
/-- The store that zeroes the output row. -/
abbrev pieceZero : View.Piece (Elt Ideal) S1x1x32 .f32 := ⟨(Rect.unit (s := S1x1x32) ![0, 0, 0] S1x1x32.size inb_S1x1x32_S1x1x32_0_0_0), k0_pay1 (F := Ideal) (k0_pay8 (F := Ideal))⟩

/-- The pieces the body leaves in the output row: the second loop's, over the zeroed row. -/
theorem witness_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) :
    (kernelRun0_A (F := Ideal) c i arg1 harg1 arg2 harg2 arg3 harg3 arg4 harg4 arg5 harg5 arg6 harg6 arg7 harg7 arg8 harg8 arg9 harg9 x0 x1 x2 x3 x4 x5).1
      = pb_k0_t2 (F := Ideal) Variants.none c none i arg1 harg1 arg2 harg2 arg3 harg3 arg4 harg4 arg5 harg5 arg6 harg6 arg7 harg7 arg8 harg8 arg9 harg9 (proj2 c i arg1 harg1 arg2 harg2 arg3 harg3 arg4 harg4 arg5 harg5 arg6 harg6 arg7 harg7 arg8 harg8 arg9 harg9 x0 x1 x2 x3 x4 x5) (bias2 c i arg1 harg1 arg2 harg2 arg3 harg3 arg4 harg4 arg5 harg5 arg6 harg6 arg7 harg7 arg8 harg8 arg9 harg9 x0 x1 x2 x3 x4 x5) (harg2.unread x1)
          (arg7.view.writes (Elt Ideal) arg7.view.junk [pieceZero]) k0_t2_loop.trips ++ [pieceZero] := by
  unfold kernelRun0_A
  rfl

/-- The loaded node features, weights and first bias row are the blocks'. -/
theorem featIn_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : featIn c i arg1 harg1 arg2 harg2 arg3 harg3 arg4 harg4 arg5 harg5 arg6 harg6 arg7 harg7 arg8 harg8 arg9 harg9 x0 x1 x2 x3 x4 x5 = x0 := readAt_unread harg1 x0 hz3 _
theorem wIn_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : wIn c i arg1 harg1 arg2 harg2 arg3 harg3 arg4 harg4 arg5 harg5 arg6 harg6 arg7 harg7 arg8 harg8 arg9 harg9 x0 x1 x2 x3 x4 x5 = x2 := readAt_unread harg3 x2 hz2 _
theorem bias1_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : bias1 c i arg1 harg1 arg2 harg2 arg3 harg3 arg4 harg4 arg5 harg5 arg6 harg6 arg7 harg7 arg8 harg8 arg9 harg9 x0 x1 x2 x3 x4 x5 = x3 := readAt_unread harg4 x3 hz2 _
theorem w2In_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) : w2In c i arg1 harg1 arg2 harg2 arg3 harg3 arg4 harg4 arg5 harg5 arg6 harg6 arg7 harg7 arg8 harg8 arg9 harg9 x0 x1 x2 x3 x4 x5 = x4 := readAt_unread harg5 x4 hz2 _

/-- Entry `(n, k)` of `x · W₁` read back from the first scratch buffer. -/
theorem proj1_apply (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) (n : Fin 2048) (k : Fin 32) :
    proj1 c i arg1 harg1 arg2 harg2 arg3 harg3 arg4 harg4 arg5 harg5 arg6 harg6 arg7 harg7 arg8 harg8 arg9 harg9 x0 x1 x2 x3 x4 x5 (ix2 n k) = Cert.Gcn.proj (fun (n : Fin 2048) (k : Fin 64) => x0 (ix3 (0 : Fin 1) n k)) (fun (k : Fin 64) (e : Fin 32) => x2 (ix2 k e)) n k := by
  refine (congrFun (View.readCov_unit_zero arg8.view hz2 inb_S2048x32_S2048x32_0_0 _) (ix2 n k)).trans ?_
  refine (pay3_apply _ _ n k).trans ?_
  rw [featIn_eq, wIn_eq]
  rfl

/-- Entry `(n, k)` of the first layer, read back whole from the second scratch buffer after the first loop. -/
theorem layer1_apply (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) (n : Fin 2048) (k : Fin 32) :
    layer1 c i arg1 harg1 arg2 harg2 arg3 harg3 arg4 harg4 arg5 harg5 arg6 harg6 arg7 harg7 arg8 harg8 arg9 harg9 x0 x1 x2 x3 x4 x5 (ix2 n k) = Cert.Gcn.layer (fun (n m : Fin 2048) => x1 (ix3 (0 : Fin 1) n m)) (Cert.Gcn.proj (fun (n : Fin 2048) (k : Fin 64) => x0 (ix3 (0 : Fin 1) n k)) (fun (k : Fin 64) (e : Fin 32) => x2 (ix2 k e))) (fun (e : Fin 32) => x3 (ix2 (0 : Fin 1) e)) n k := by
  show View.ld (arg9.view.read (Elt Ideal) _) (Rect.unit (s := S2048x32) ![0, 0] S2048x32.size inb_S2048x32_S2048x32_0_0) (ix2 n k) = _
  rw [View.ld_unit_zero hz2]
  refine (read_tiles arg9.view arg9.view.junk Variants.none c none i arg1 harg1 arg2 harg2 arg3 harg3 arg4 harg4 arg5 harg5 arg6 harg6 arg7 harg7 arg8 harg8 arg9 harg9 _ _ (harg2.unread x1) n k).trans ?_
  rw [harg2.read_unread, bias1_eq]
  unfold Cert.Gcn.layer
  refine congrArg (fun t => max (t + x3 (ix2 (0 : Fin 1) k)) 0) (Finset.sum_congr rfl fun m _ => ?_)
  rw [proj1_apply]

/-- Entry `(n, d)` of the first layer times `W₂`, as the second loop is entered with it. -/
theorem proj2_apply (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) (n : Fin 2048) (d : Fin 32) :
    proj2 c i arg1 harg1 arg2 harg2 arg3 harg3 arg4 harg4 arg5 harg5 arg6 harg6 arg7 harg7 arg8 harg8 arg9 harg9 x0 x1 x2 x3 x4 x5 (ix2 n d)
      = Cert.Gcn.proj (Cert.Gcn.layer (fun (n m : Fin 2048) => x1 (ix3 (0 : Fin 1) n m)) (Cert.Gcn.proj (fun (n : Fin 2048) (k : Fin 64) => x0 (ix3 (0 : Fin 1) n k)) (fun (k : Fin 64) (e : Fin 32) => x2 (ix2 k e))) (fun (e : Fin 32) => x3 (ix2 (0 : Fin 1) e))) (fun (k e : Fin 32) => x4 (ix2 k e)) n d := by
  show (arg8.view.readCov [pieceProj2 c i arg1 harg1 arg2 harg2 arg3 harg3 arg4 harg4 arg5 harg5 arg6 harg6 arg7 harg7 arg8 harg8 arg9 harg9 x0 x1 x2 x3 x4 x5, pieceProj1 c i arg1 harg1 arg2 harg2 arg3 harg3 arg4 harg4 arg5 harg5 arg6 harg6 arg7 harg7 arg8 harg8 arg9 harg9 x0 x1 x2 x3 x4 x5] (Rect.unit (s := S2048x32) ![0, 0] S2048x32.size inb_S2048x32_S2048x32_0_0).toLoadRect) (ix2 n d) = _
  rw [View.readCov_eq_canon_ld arg8.view _ (Rect.unit (s := S2048x32) ![0, 0] S2048x32.size inb_S2048x32_S2048x32_0_0) (fun y => ⟨pieceProj2 c i arg1 harg1 arg2 harg2 arg3 harg3 arg4 harg4 arg5 harg5 arg6 harg6 arg7 harg7 arg8 harg8 arg9 harg9 x0 x1 x2 x3 x4 x5, List.mem_cons_self,
    View.mem_set_unit_zero hz2 inb_S2048x32_S2048x32_0_0 y⟩), View.canon_cons_unit_zero hz2, View.ld_unit_zero hz2]
  refine (pay5_apply _ _ n d).trans ?_
  unfold Cert.Gcn.proj
  refine Finset.sum_congr rfl fun k _ => ?_
  rw [layer1_apply, w2In_eq]
  rfl

/-- The second bias row the loop is entered with is the block's. -/
theorem bias2_apply (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) (d : Fin 32) : bias2 c i arg1 harg1 arg2 harg2 arg3 harg3 arg4 harg4 arg5 harg5 arg6 harg6 arg7 harg7 arg8 harg8 arg9 harg9 x0 x1 x2 x3 x4 x5 (ix2 (0 : Fin 1) d) = x5 (ix2 (0 : Fin 1) d) :=
  (pay7_apply _ _).trans (congrFun (readAt_unread harg6 x5 hz2 _) _)

/-- The zeroed output row reads zero. -/
theorem zero_row (arg7 : Memref sig .tc .vmem S1x1x32 .f32) (d : Fin 32) :
    arg7.view.read (Elt Ideal) (arg7.view.writes (Elt Ideal) arg7.view.junk [pieceZero]) (ix3 (0 : Fin 1) (0 : Fin 1) d) = 0 :=
  (read_row_cons arg7.view arg7.view.junk _ [] _).trans (pay1_pay8_apply _)

/-- Entry `d` of the output row one grid point leaves, as a function of the point's input blocks. -/
theorem out_eq (c : Dev nD) (i : grid0.Coords) (arg1 : Memref sig .tc .vmem S1x2048x64 .f32) (harg1 : arg1.IsWhole) (arg2 : Memref sig .tc .vmem S1x2048x2048 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x1x32 .f32) (harg7 : arg7.IsWhole) (arg8 : Memref sig .tc .vmem S2048x32 .f32) (harg8 : arg8.IsWhole) (arg9 : Memref sig .tc .vmem S2048x32 .f32) (harg9 : arg9.IsWhole) (x0 : Vec Ideal S1x2048x64 .f32) (x1 : Vec Ideal S1x2048x2048 .f32) (x2 : Vec Ideal S64x32 .f32) (x3 : Vec Ideal S1x32 .f32) (x4 : Vec Ideal S32x32 .f32) (x5 : Vec Ideal S1x32 .f32) (d : Fin 32) :
    GenP.out0_A_6 (F := Ideal) c i arg1 harg1 arg2 harg2 arg3 harg3 arg4 harg4 arg5 harg5 arg6 harg6 arg7 harg7 arg8 harg8 arg9 harg9 x0 x1 x2 x3 x4 x5 (ix3 (0 : Fin 1) (0 : Fin 1) d)
      = Cert.Gcn.pooled (fun (n : Fin 2048) (k : Fin 64) => x0 (ix3 (0 : Fin 1) n k)) (fun (n m : Fin 2048) => x1 (ix3 (0 : Fin 1) n m))
          (fun (k : Fin 64) (e : Fin 32) => x2 (ix2 k e)) (fun (e : Fin 32) => x3 (ix2 (0 : Fin 1) e))
          (fun (k e : Fin 32) => x4 (ix2 k e)) (fun (e : Fin 32) => x5 (ix2 (0 : Fin 1) e)) d := by
  have h7 : 7 < k0_t2_loop.trips := by rw [trips2]; decide
  unfold out0_A_6
  rw [witness_eq, congrArg (pb_k0_t2 (F := Ideal) Variants.none c none i arg1 harg1 arg2 harg2 arg3 harg3 arg4 harg4 arg5 harg5 arg6 harg6 arg7 harg7 arg8 harg8 arg9 harg9 (proj2 c i arg1 harg1 arg2 harg2 arg3 harg3 arg4 harg4 arg5 harg5 arg6 harg6 arg7 harg7 arg8 harg8 arg9 harg9 x0 x1 x2 x3 x4 x5) (bias2 c i arg1 harg1 arg2 harg2 arg3 harg3 arg4 harg4 arg5 harg5 arg6 harg6 arg7 harg7 arg8 harg8 arg9 harg9 x0 x1 x2 x3 x4 x5) (harg2.unread x1)
    (arg7.view.writes (Elt Ideal) arg7.view.junk [pieceZero])) (show k0_t2_loop.trips = 7 + 1 from trips2)]
  refine (row_succ VO0_6 VO0_6.junk Variants.none c none i arg1 harg1 arg2 harg2 arg3 harg3 arg4 harg4 arg5 harg5 arg6 harg6 arg7 harg7 arg8 harg8 arg9 harg9 (proj2 c i arg1 harg1 arg2 harg2 arg3 harg3 arg4 harg4 arg5 harg5 arg6 harg6 arg7 harg7 arg8 harg8 arg9 harg9 x0 x1 x2 x3 x4 x5) (bias2 c i arg1 harg1 arg2 harg2 arg3 harg3 arg4 harg4 arg5 harg5 arg6 harg6 arg7 harg7 arg8 harg8 arg9 harg9 x0 x1 x2 x3 x4 x5) (harg2.unread x1)
    (arg7.view.writes (Elt Ideal) arg7.view.junk [pieceZero]) [pieceZero] d 7 h7).trans ?_
  rw [row_after Variants.none c none i arg1 harg1 arg2 harg2 arg3 harg3 arg4 harg4 arg5 harg5 arg6 harg6 arg7 harg7 arg8 harg8 arg9 harg9 (proj2 c i arg1 harg1 arg2 harg2 arg3 harg3 arg4 harg4 arg5 harg5 arg6 harg6 arg7 harg7 arg8 harg8 arg9 harg9 x0 x1 x2 x3 x4 x5) (bias2 c i arg1 harg1 arg2 harg2 arg3 harg3 arg4 harg4 arg5 harg5 arg6 harg6 arg7 harg7 arg8 harg8 arg9 harg9 x0 x1 x2 x3 x4 x5) (harg2.unread x1)
    (arg7.view.writes (Elt Ideal) arg7.view.junk [pieceZero]) d 7 (le_of_lt h7), zero_row, zero_add]
  refine (show _ + _ = Cert.Gcn.running 8 256 _ (7 + 1) from rfl).trans ?_
  refine (Cert.Gcn.running_all 8 256 _).trans ?_
  unfold Cert.Gcn.pooled Cert.Gcn.hidden
  refine Finset.sum_congr rfl fun n _ => ?_
  show max (∑ m : Fin 2048, arg2.view.read (Elt Ideal) (harg2.unread x1) (ix3 (0 : Fin 1) (⟨n.val, n.isLt⟩ : Fin 2048) m)
      * proj2 c i arg1 harg1 arg2 harg2 arg3 harg3 arg4 harg4 arg5 harg5 arg6 harg6 arg7 harg7 arg8 harg8 arg9 harg9 x0 x1 x2 x3 x4 x5 (ix2 m d) + bias2 c i arg1 harg1 arg2 harg2 arg3 harg3 arg4 harg4 arg5 harg5 arg6 harg6 arg7 harg7 arg8 harg8 arg9 harg9 x0 x1 x2 x3 x4 x5 (ix2 (0 : Fin 1) d)) 0 = _
  rw [harg2.read_unread, bias2_apply]
  unfold Cert.Gcn.layer
  refine congrArg (fun t => max (t + x5 (ix2 (0 : Fin 1) d)) 0) (Finset.sum_congr rfl fun m _ => ?_)
  rw [proj2_apply]
  rfl

end Cert.KernelIdeal.BodyValue

end
-- ==== Proof.Arrays.lean ====
/-
  The pooled array: what the fused graph-convolution region leaves in its output array.

  The region runs once per graph. Its output array has one row of 32 entries per graph (shape 32 × 1 × 32), and grid
  point `t` reads graph `t`'s node features and adjacency (block `t` along the first axis of the two big arrays), the
  whole of the two weight matrices and the two bias vectors (each bias reshaped from 32 entries to one row of 32 before the
  region), and writes back row `t`. A block's entry sits in its array, on each axis, at block index × block size plus the
  coordinate inside the block; the block indices are decided once over the 32 points.

  Given that a point leaves in its output row the specification `Cert.Gcn.pooled` of the blocks it read, row `b` of the
  output array after the run is `Cert.Gcn.pooled` of graph `b`'s slices of the argument arrays: every row is written
  back by exactly the point with its number, so the rows cover the array.
-/
import proofs.«144628_j41695542509689_2_alg».proof.Proof.KernelIdealFrameP
import proofs.«144628_j41695542509689_2_alg».proof.Proof.BodyValue
import proofs.«144628_j41695542509689_2_alg».proof.Proof.Spec
import Idealize.ShloMosaic.Lib.ValueIdx
import Idealize.ShloMosaic.Lib.Pipeline.Value

set_option maxRecDepth 16384

noncomputable section

/-! ## All graphs' pooled vectors as one array -/

namespace Cert.Gcn

open Idealize.ShloMosaic Idealize.ShloMosaic.ValueIdx

/-- The pooled vector of graph `b`: the specification at graph `b`'s features and adjacency and the shared weights. -/
def pooledAt (a0 : (⟨3, ![32, 2048, 64]⟩ : Shape).Idx → EReal) (a1 : (⟨3, ![32, 2048, 2048]⟩ : Shape).Idx → EReal)
    (a2 : (⟨2, ![64, 32]⟩ : Shape).Idx → EReal) (a3 : (⟨1, ![32]⟩ : Shape).Idx → EReal)
    (a4 : (⟨2, ![32, 32]⟩ : Shape).Idx → EReal) (a5 : (⟨1, ![32]⟩ : Shape).Idx → EReal) (b d : Fin 32) : EReal :=
  pooled (fun (n : Fin 2048) (k : Fin 64) => a0 (ix3 b n k)) (fun (n j : Fin 2048) => a1 (ix3 b n j))
    (fun (k : Fin 64) (e : Fin 32) => a2 (ix2 k e)) (fun (e : Fin 32) => a3 (ix1 e))
    (fun (k e : Fin 32) => a4 (ix2 k e)) (fun (e : Fin 32) => a5 (ix1 e)) d

/-- All graphs' pooled vectors as a `32 × 1 × 32` array: entry `(b, 0, d)` is entry `d` of graph `b`'s. -/
def pooledRows3 (a0 : (⟨3, ![32, 2048, 64]⟩ : Shape).Idx → EReal) (a1 : (⟨3, ![32, 2048, 2048]⟩ : Shape).Idx → EReal)
    (a2 : (⟨2, ![64, 32]⟩ : Shape).Idx → EReal) (a3 : (⟨1, ![32]⟩ : Shape).Idx → EReal)
    (a4 : (⟨2, ![32, 32]⟩ : Shape).Idx → EReal) (a5 : (⟨1, ![32]⟩ : Shape).Idx → EReal) :
    (⟨3, ![32, 1, 32]⟩ : Shape).Idx → EReal :=
  fun i => pooledAt a0 a1 a2 a3 a4 a5 (i 0) (i 2)

/-- The same as a `32 × 32` array. -/
def pooledRows (a0 : (⟨3, ![32, 2048, 64]⟩ : Shape).Idx → EReal) (a1 : (⟨3, ![32, 2048, 2048]⟩ : Shape).Idx → EReal)
    (a2 : (⟨2, ![64, 32]⟩ : Shape).Idx → EReal) (a3 : (⟨1, ![32]⟩ : Shape).Idx → EReal)
    (a4 : (⟨2, ![32, 32]⟩ : Shape).Idx → EReal) (a5 : (⟨1, ![32]⟩ : Shape).Idx → EReal) :
    (⟨2, ![32, 32]⟩ : Shape).Idx → EReal :=
  fun i => pooledAt a0 a1 a2 a3 a4 a5 (i 0) (i 1)

/-- Dropping the unit axis of the `32 × 1 × 32` array gives the `32 × 32` one. -/
theorem pooledRows3_reshape (a0 : (⟨3, ![32, 2048, 64]⟩ : Shape).Idx → EReal) (a1 : (⟨3, ![32, 2048, 2048]⟩ : Shape).Idx → EReal)
    (a2 : (⟨2, ![64, 32]⟩ : Shape).Idx → EReal) (a3 : (⟨1, ![32]⟩ : Shape).Idx → EReal)
    (a4 : (⟨2, ![32, 32]⟩ : Shape).Idx → EReal) (a5 : (⟨1, ![32]⟩ : Shape).Idx → EReal)
    (h : (⟨3, ![32, 1, 32]⟩ : Shape).ShapeCasts ⟨2, ![32, 32]⟩) :
    (fun i => shapeCast (⟨2, ![32, 32]⟩ : Shape) (pooledRows3 a0 a1 a2 a3 a4 a5) h i) = pooledRows a0 a1 a2 a3 a4 a5 := by
  funext i
  obtain ⟨b, d, rfl⟩ : ∃ (b d : Fin 32), i = ix2 b d := ⟨i 0, i 1, eq_ix2 i⟩
  refine (shapeCast_apply (pooledRows3 a0 a1 a2 a3 a4 a5) h (ix2 b d) (ix3 b (0 : Fin 1) d) ?_).trans rfl
  rw [Shape.rowMajor_val_three, Shape.rowMajor_val_two]
  show (b.val * 1 + 0) * 32 + d.val = b.val * 32 + d.val
  omega

end Cert.Gcn

/-! ## The region's output array -/

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The grid has 32 points. -/
theorem grid_lt (t : Fin cfg0.N) : t.val < 32 := lt_of_lt_of_eq t.isLt (show cfg0.N = 32 from N_0)

/-- The block indices of every window, decided once over the 32 grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The feature block at point `t` is graph `t`'s features: block `t` along the first axis, the other two axes whole. -/
theorem blk0 (c : Dev nD) (t : Fin cfg0.N) (b : Fin 32) (hb : b.val = t.val) (n : Fin 2048) (k : Fin 64) :
    (iblk m c 0 t : Vec Ideal S1x2048x64 .f32) (ix3 (0 : Fin 1) n k)
      = (m ((c : Thread nD τ).loc main_arg0) : S32x2048x64.Idx → EReal) (ix3 b n k) := by
  obtain ⟨e0, e1, e2, -⟩ := idx_facts t
  unfold iblk
  rw [View.read_apply]
  show V m c main_arg0 _ = _
  rw [V_main_arg0]
  refine congrArg _ ?_
  funext a
  apply Fin.ext
  match a with
  | ⟨0, _⟩ => show win0_0.index t (0 : Fin 3) * 1 + 1 * 0 = b.val; omega
  | ⟨1, _⟩ => show win0_0.index t (1 : Fin 3) * 2048 + 1 * n.val = n.val; omega
  | ⟨2, _⟩ => show win0_0.index t (2 : Fin 3) * 64 + 1 * k.val = k.val; omega

/-- The adjacency block at point `t` is graph `t`'s adjacency matrix. -/
theorem blk1 (c : Dev nD) (t : Fin cfg0.N) (b : Fin 32) (hb : b.val = t.val) (n k : Fin 2048) :
    (iblk m c 1 t : Vec Ideal S1x2048x2048 .f32) (ix3 (0 : Fin 1) n k)
      = (m ((c : Thread nD τ).loc main_arg1) : S32x2048x2048.Idx → EReal) (ix3 b n k) := by
  obtain ⟨-, -, -, e0, e1, e2, -⟩ := idx_facts t
  unfold iblk
  rw [View.read_apply]
  show V m c main_arg1 _ = _
  rw [V_main_arg1]
  refine congrArg _ ?_
  funext a
  apply Fin.ext
  match a with
  | ⟨0, _⟩ => show win0_1.index t (0 : Fin 3) * 1 + 1 * 0 = b.val; omega
  | ⟨1, _⟩ => show win0_1.index t (1 : Fin 3) * 2048 + 1 * n.val = n.val; omega
  | ⟨2, _⟩ => show win0_1.index t (2 : Fin 3) * 2048 + 1 * k.val = k.val; omega

/-- The first weight matrix is one block, the same at every point. -/
theorem blk2 (c : Dev nD) (t : Fin cfg0.N) (k : Fin 64) (e : Fin 32) :
    (iblk m c 2 t : Vec Ideal S64x32 .f32) (ix2 k e)
      = (m ((c : Thread nD τ).loc main_arg2) : S64x32.Idx → EReal) (ix2 k e) := by
  obtain ⟨-, -, -, -, -, -, e0, e1, -⟩ := idx_facts t
  unfold iblk
  rw [View.read_apply]
  show V m c main_arg2 _ = _
  rw [V_main_arg2]
  refine congrArg _ ?_
  funext a
  apply Fin.ext
  match a with
  | ⟨0, _⟩ => show win0_2.index t (0 : Fin 2) * 64 + 1 * k.val = k.val; omega
  | ⟨1, _⟩ => show win0_2.index t (1 : Fin 2) * 32 + 1 * e.val = e.val; omega

/-- The second weight matrix is one block, the same at every point. -/
theorem blk4 (c : Dev nD) (t : Fin cfg0.N) (k e : Fin 32) :
    (iblk m c 4 t : Vec Ideal S32x32 .f32) (ix2 k e)
      = (m ((c : Thread nD τ).loc main_arg4) : S32x32.Idx → EReal) (ix2 k e) := by
  obtain ⟨-, -, -, -, -, -, -, -, -, -, e0, e1, -⟩ := idx_facts t
  unfold iblk
  rw [View.read_apply]
  show V m c main_arg4 _ = _
  rw [V_main_arg4]
  refine congrArg _ ?_
  funext a
  apply Fin.ext
  match a with
  | ⟨0, _⟩ => show win0_4.index t (0 : Fin 2) * 32 + 1 * k.val = k.val; omega
  | ⟨1, _⟩ => show win0_4.index t (1 : Fin 2) * 32 + 1 * e.val = e.val; omega

/-- A bias vector reshaped to one row, read at an index. -/
theorem row_reshape (x : S32.Idx → EReal) (h : S32.ShapeCasts S1x32) (e : Fin 32) :
    shapeCast S1x32 x h (ix2 (0 : Fin 1) e) = x (ix1 e) := by
  refine shapeCast_apply x h _ _ ?_
  rw [Shape.rowMajor_val_one, Shape.rowMajor_val_two]
  show e.val = 0 * 32 + e.val
  omega

/-- Before the region the first bias vector is reshaped to one row; nothing else touches that row's buffer. -/
theorem V_main_v0 (c : Dev nD) :
    (V m c main_v0 : S1x32.Idx → EReal)
      = fun i => shapeCast S1x32 (m ((c : Thread nD τ).loc main_arg3) : S32.Idx → EReal) shapeCasts_S32_S1x32 i := by
  dsimp only [Gen.V, Gen.V0]
  simp only [Gen.hostOps0, List.flatten_cons, List.flatten_nil, List.append_nil, List.cons_append, List.nil_append]
  after_results
  rfl

/-- The same for the second bias vector. -/
theorem V_main_v1 (c : Dev nD) :
    (V m c main_v1 : S1x32.Idx → EReal)
      = fun i => shapeCast S1x32 (m ((c : Thread nD τ).loc main_arg5) : S32.Idx → EReal) shapeCasts_S32_S1x32 i := by
  dsimp only [Gen.V, Gen.V0]
  simp only [Gen.hostOps0, List.flatten_cons, List.flatten_nil, List.append_nil, List.cons_append, List.nil_append]
  after_results
  rfl

/-- The first bias row is one block; entry `(0, e)` of it is entry `e` of the bias vector as launched. -/
theorem blk3 (c : Dev nD) (t : Fin cfg0.N) (e : Fin 32) :
    (iblk m c 3 t : Vec Ideal S1x32 .f32) (ix2 (0 : Fin 1) e)
      = (m ((c : Thread nD τ).loc main_arg3) : S32.Idx → EReal) (ix1 e) := by
  obtain ⟨-, -, -, -, -, -, -, -, e0, e1, -⟩ := idx_facts t
  unfold iblk
  rw [View.read_apply]
  show V m c main_v0 _ = _
  rw [V_main_v0]
  refine (congrArg _ ?_).trans (row_reshape _ shapeCasts_S32_S1x32 e)
  funext a
  apply Fin.ext
  match a with
  | ⟨0, _⟩ => show win0_3.index t (0 : Fin 2) * 1 + 1 * 0 = 0; omega
  | ⟨1, _⟩ => show win0_3.index t (1 : Fin 2) * 32 + 1 * e.val = e.val; omega

/-- The second bias row is one block; entry `(0, e)` of it is entry `e` of the bias vector as launched. -/
theorem blk5 (c : Dev nD) (t : Fin cfg0.N) (e : Fin 32) :
    (iblk m c 5 t : Vec Ideal S1x32 .f32) (ix2 (0 : Fin 1) e)
      = (m ((c : Thread nD τ).loc main_arg5) : S32.Idx → EReal) (ix1 e) := by
  obtain ⟨-, -, -, -, -, -, -, -, -, -, -, -, e0, e1, -⟩ := idx_facts t
  unfold iblk
  rw [View.read_apply]
  show V m c main_v1 _ = _
  rw [V_main_v1]
  refine (congrArg _ ?_).trans (row_reshape _ shapeCasts_S32_S1x32 e)
  funext a
  apply Fin.ext
  match a with
  | ⟨0, _⟩ => show win0_5.index t (0 : Fin 2) * 1 + 1 * 0 = 0; omega
  | ⟨1, _⟩ => show win0_5.index t (1 : Fin 2) * 32 + 1 * e.val = e.val; omega

/-- The specification read through one grid point's blocks: when the blocks are graph `b`'s slices of the arrays
    (and the whole weight and bias arrays), it is graph `b`'s pooled vector. -/
theorem pooled_of_blocks (x0 : Vec Ideal S1x2048x64 .f32) (x1 : Vec Ideal S1x2048x2048 .f32) (x2 : Vec Ideal S64x32 .f32)
    (x3 : Vec Ideal S1x32 .f32) (x4 : Vec Ideal S32x32 .f32) (x5 : Vec Ideal S1x32 .f32)
    (a0 : S32x2048x64.Idx → EReal) (a1 : S32x2048x2048.Idx → EReal) (a2 : S64x32.Idx → EReal) (a3 : S32.Idx → EReal)
    (a4 : S32x32.Idx → EReal) (a5 : S32.Idx → EReal) (b : Fin 32)
    (h0 : ∀ (n : Fin 2048) (k : Fin 64), x0 (ix3 (0 : Fin 1) n k) = a0 (ix3 b n k))
    (h1 : ∀ (n j : Fin 2048), x1 (ix3 (0 : Fin 1) n j) = a1 (ix3 b n j))
    (h2 : ∀ (k : Fin 64) (e : Fin 32), x2 (ix2 k e) = a2 (ix2 k e))
    (h3 : ∀ e : Fin 32, x3 (ix2 (0 : Fin 1) e) = a3 (ix1 e))
    (h4 : ∀ k e : Fin 32, x4 (ix2 k e) = a4 (ix2 k e))
    (h5 : ∀ e : Fin 32, x5 (ix2 (0 : Fin 1) e) = a5 (ix1 e)) (d : Fin 32) :
    Cert.Gcn.pooled (fun (n : Fin 2048) (k : Fin 64) => x0 (ix3 (0 : Fin 1) n k)) (fun (n j : Fin 2048) => x1 (ix3 (0 : Fin 1) n j))
        (fun (k : Fin 64) (e : Fin 32) => x2 (ix2 k e)) (fun (e : Fin 32) => x3 (ix2 (0 : Fin 1) e))
        (fun (k e : Fin 32) => x4 (ix2 k e)) (fun (e : Fin 32) => x5 (ix2 (0 : Fin 1) e)) d
      = Cert.Gcn.pooledAt a0 a1 a2 a3 a4 a5 b d := by
  have e0 : (fun (n : Fin 2048) (k : Fin 64) => x0 (ix3 (0 : Fin 1) n k)) = fun n k => a0 (ix3 b n k) :=
    funext fun n => funext fun k => h0 n k
  have e1 : (fun (n j : Fin 2048) => x1 (ix3 (0 : Fin 1) n j)) = fun n j => a1 (ix3 b n j) :=
    funext fun n => funext fun j => h1 n j
  have e2 : (fun (k : Fin 64) (e : Fin 32) => x2 (ix2 k e)) = fun k e => a2 (ix2 k e) :=
    funext fun k => funext fun e => h2 k e
  have e3 : (fun (e : Fin 32) => x3 (ix2 (0 : Fin 1) e)) = fun e => a3 (ix1 e) := funext h3
  have e4 : (fun (k e : Fin 32) => x4 (ix2 k e)) = fun k e => a4 (ix2 k e) := funext fun k => funext fun e => h4 k e
  have e5 : (fun (e : Fin 32) => x5 (ix2 (0 : Fin 1) e)) = fun e => a5 (ix1 e) := funext h5
  rw [e0, e1, e2, e3, e4, e5]
  rfl

/-- What a grid point writes back is its block of the pooled array, for any proof data whose output buffer holds,
    after point `t`, graph `t`'s pooled vector. -/
theorem flushed_of {c : Dev nD} (dat : Dat τ (Elt Ideal) Unit ℕ (UR sig nD τ) ℕ cfg0 c) (t : Fin cfg0.N)
    (a0 : S32x2048x64.Idx → EReal) (a1 : S32x2048x2048.Idx → EReal) (a2 : S64x32.Idx → EReal) (a3 : S32.Idx → EReal)
    (a4 : S32x32.Idx → EReal) (a5 : S32.Idx → EReal)
    (h : ∀ d : Fin 32, (dat.after 6 t : Vec Ideal S1x1x32 .f32) (ix3 (0 : Fin 1) (0 : Fin 1) d)
      = Cert.Gcn.pooledAt a0 a1 a2 a3 a4 a5 ⟨t.val, grid_lt t⟩ d) :
    dat.flushed 6 t = ((cfg0.win 6).blk t).view.read (Elt Ideal) (Cert.Gcn.pooledRows3 a0 a1 a2 a3 a4 a5) := by
  obtain ⟨-, -, -, -, -, -, -, -, -, -, -, -, -, -, e0, e1, e2⟩ := idx_facts t
  show (cfg0.win 6).cut (grid0.coords t) (dat.after 6 t) = _
  funext j
  rw [View.read_apply]
  have h0 : (j 0).val < 1 := (j 0).isLt
  have h1 : (j 1).val < 1 := (j 1).isLt
  have h2 : (j 2).val < 32 := (j 2).isLt
  have hj : (cfg0.win 6).xinj (grid0.coords t) j = (ix3 (0 : Fin 1) (0 : Fin 1) (⟨(j 2).val, h2⟩ : Fin 32) : S1x1x32.Idx) := by
    funext a
    apply Fin.ext
    match a with
    | ⟨0, _⟩ => show (j 0).val = 0; omega
    | ⟨1, _⟩ => show (j 1).val = 0; omega
    | ⟨2, _⟩ => rfl
  show (dat.after 6 t : Vec Ideal S1x1x32 .f32) ((cfg0.win 6).xinj (grid0.coords t) j) = _
  rw [hj, h]
  show Cert.Gcn.pooledAt a0 a1 a2 a3 a4 a5 _ _
    = Cert.Gcn.pooledAt a0 a1 a2 a3 a4 a5 ((((cfg0.win 6).blk t).view.emb j : S32x1x32.Idx) 0) ((((cfg0.win 6).blk t).view.emb j : S32x1x32.Idx) 2)
  refine congrArg₂ (Cert.Gcn.pooledAt a0 a1 a2 a3 a4 a5) (Fin.ext ?_) (Fin.ext ?_)
  · show t.val = win0_6.index t (0 : Fin 3) * 1 + 1 * (j 0).val
    omega
  · show (j 2).val = win0_6.index t (2 : Fin 3) * 32 + 1 * (j 2).val
    omega

/-- An index of the output array is in point `t`'s block iff each coordinate is in the block's range. -/
theorem mem_blk (t : Fin cfg0.N) (i : S32x1x32.Idx) :
    i ∈ ((cfg0.win 6).blk t).view.set ↔ ∀ a : Fin 3, win0_6.index t a * S1x1x32.size a ≤ (i a).val
      ∧ (i a).val < win0_6.index t a * S1x1x32.size a + S1x1x32.size a := by
  show i ∈ ((View.whole main_v2).slice (win0_6.rect t)).set ↔ _
  rw [View.set_slice_whole, Rect.mem_set_unit]
  exact Iff.rfl

/-- Row `b` of the output array is written back by grid point `b`. -/
theorem cover (i : S32x1x32.Idx) : ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 32 := (i 2).isLt
  have hN : (i 0).val < cfg0.N := lt_of_lt_of_eq hi0 (show cfg0.N = 32 from N_0).symm
  refine ⟨⟨(i 0).val, hN⟩, flush0_6 _, ?_⟩
  rw [mem_blk]
  obtain ⟨-, -, -, -, -, -, -, -, -, -, -, -, -, -, e0, e1, e2⟩ := idx_facts ⟨(i 0).val, hN⟩
  have e0' : win0_6.index ⟨(i 0).val, hN⟩ (0 : Fin 3) = (i 0).val := e0
  intro a
  match a with
  | ⟨0, _⟩ =>
    show win0_6.index ⟨(i 0).val, hN⟩ (0 : Fin 3) * 1 ≤ (i 0).val ∧ (i 0).val < win0_6.index ⟨(i 0).val, hN⟩ (0 : Fin 3) * 1 + 1
    omega
  | ⟨1, _⟩ =>
    show win0_6.index ⟨(i 0).val, hN⟩ (1 : Fin 3) * 1 ≤ (i 1).val ∧ (i 1).val < win0_6.index ⟨(i 0).val, hN⟩ (1 : Fin 3) * 1 + 1
    omega
  | ⟨2, _⟩ =>
    show win0_6.index ⟨(i 0).val, hN⟩ (2 : Fin 3) * 32 ≤ (i 2).val ∧ (i 2).val < win0_6.index ⟨(i 0).val, hN⟩ (2 : Fin 3) * 32 + 32
    omega

/-- The output array after the run is the pooled array, for any proof data whose output buffer holds, after each
    point, that point's graph's pooled vector. -/
theorem final_of {c : Dev nD} (dat : Dat τ (Elt Ideal) Unit ℕ (UR sig nD τ) ℕ cfg0 c)
    (a0 : S32x2048x64.Idx → EReal) (a1 : S32x2048x2048.Idx → EReal) (a2 : S64x32.Idx → EReal) (a3 : S32.Idx → EReal)
    (a4 : S32x32.Idx → EReal) (a5 : S32.Idx → EReal)
    (h : ∀ (t : Fin cfg0.N) (d : Fin 32), (dat.after 6 t : Vec Ideal S1x1x32 .f32) (ix3 (0 : Fin 1) (0 : Fin 1) d)
      = Cert.Gcn.pooledAt a0 a1 a2 a3 a4 a5 ⟨t.val, grid_lt t⟩ d) :
    dat.arrAt 6 cfg0.N = Cert.Gcn.pooledRows3 a0 a1 a2 a3 a4 a5 :=
  dat.arrAt_eq_of_cover 6 (Cert.Gcn.pooledRows3 a0 a1 a2 a3 a4 a5) (fun t _ => flushed_of dat t a0 a1 a2 a3 a4 a5 (h t)) cover

/-! ## The proof data's output buffer, point by point, and the array after the run -/

/-- After point `t` the output's staging buffer holds graph `t`'s pooled vector: the body's result on the point's
    blocks, each block read where its window puts it. -/
theorem after6 (c : Dev nD) (t : Fin cfg0.N) (d : Fin 32) :
    ((GenP.dats m 0 c).after 6 t : Vec Ideal S1x1x32 .f32) (ix3 (0 : Fin 1) (0 : Fin 1) d)
      = Cert.Gcn.pooledAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) ⟨t.val, grid_lt t⟩ d := by
  rw [GenP.after0_6]
  unfold GenP.outsAt0
  exact (Cert.KernelIdeal.BodyValue.out_eq c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _)
      scM0_1 (Memref.isWhole_whole _) (iblk m c 0 t) (iblk m c 1 t) (iblk m c 2 t) (iblk m c 3 t) (iblk m c 4 t)
      (iblk m c 5 t) d).trans
    (pooled_of_blocks (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨t.val, grid_lt t⟩
      (fun n k => blk0 m c t ⟨t.val, grid_lt t⟩ rfl n k) (fun n j => blk1 m c t ⟨t.val, grid_lt t⟩ rfl n j)
      (fun k e => blk2 m c t k e) (fun e => blk3 m c t e) (fun k e => blk4 m c t k e) (fun e => blk5 m c t e) d)

/-- The region's output array after the run: row `b` is graph `b`'s pooled vector. -/
theorem final (c : Dev nD) :
    (GenP.dats m 0 c).arrAt 6 cfg0.N
      = Cert.Gcn.pooledRows3 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  final_of (GenP.dats m 0 c) _ _ _ _ _ _ (after6 m c)

end Cert.KernelIdeal.Arrays

end
-- ==== Proof.Tail.lean ====
/-
  After the region: the dense head on the pooled rows, and the kernel's run with its result named.

  The program reshapes the region's `32 × 1 × 32` output array to `32 × 32` (the unit axis dropped), multiplies it by
  the first head matrix (`32 × 512`), adds the first head bias along the rows, clamps at zero, multiplies by the second
  head matrix (`512 × 1`) and adds the second head bias. These operations are kept as ONE function `head` of the pooled
  rows and the four head arrays, never opened: both programs apply the same operations, so only their arguments are
  compared. The region's output array is the pooled array (its rows cover it), the head's weights are not touched by
  anything before them, so the result buffer ends at `head` of all graphs' pooled vectors; the ten arguments end as
  launched.
-/
import proofs.«144628_j41695542509689_2_alg».proof.Proof.KernelIdealFrameP
import proofs.«144628_j41695542509689_2_alg».proof.Proof.Arrays
import Idealize.ShloMosaic.Lib.ValueIdx
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx

/-- The dense head applied to the pooled rows: a product with the first head matrix, its bias added along the rows,
    the clamp at zero, a product with the second head matrix, its bias added. -/
def head {F : FTy → Type} [FloatOps F] (p : (⟨S32x32, .f32⟩ : BufTy).Contents (Elt F))
    (wf1 : (⟨S32x512, .f32⟩ : BufTy).Contents (Elt F)) (bf1 : (⟨S512, .f32⟩ : BufTy).Contents (Elt F))
    (wf2 : (⟨S512x1, .f32⟩ : BufTy).Contents (Elt F)) (bf2 : (⟨S1, .f32⟩ : BufTy).Contents (Elt F)) :
    (⟨S32x1, .f32⟩ : BufTy).Contents (Elt F) :=
  addf (F := F)
    (Host.dotGeneral (F := F) dot_S32x512_S512x1_S32x1_1_0_0_1_n_n none
      (maximumf (F := F)
        (addf (F := F) (Host.dotGeneral (F := F) dot_S32x32_S32x512_S32x512_1_0_0_1_n_n none p wf1)
          (broadcastInDim S32x512 ![0, 1] bcast_S1x512_S32x512_0_1 (broadcastInDim S1x512 ![1] bcast_S512_S1x512_1 bf1)))
        (broadcastInDim S32x512 ![] bcast_S_S32x512 (constant (F := F) S_ .f32 0x00000000#32)))
      wf2)
    (broadcastInDim S32x1 ![0, 1] bcast_S1x1_S32x1_0_1 (broadcastInDim S1x1 ![1] bcast_S1_S1x1_1 bf2))

/-- The head at equal arguments. -/
theorem head_congr {F : FTy → Type} [FloatOps F] {p p' : (⟨S32x32, .f32⟩ : BufTy).Contents (Elt F)}
    {w1 w1' : (⟨S32x512, .f32⟩ : BufTy).Contents (Elt F)} {b1 b1' : (⟨S512, .f32⟩ : BufTy).Contents (Elt F)}
    {w2 w2' : (⟨S512x1, .f32⟩ : BufTy).Contents (Elt F)} {b2 b2' : (⟨S1, .f32⟩ : BufTy).Contents (Elt F)}
    (hp : p = p') (h1 : w1 = w1') (h2 : b1 = b1') (h3 : w2 = w2') (h4 : b2 = b2') :
    head p w1 b1 w2 b2 = head p' w1' b1' w2' b2' := by
  rw [hp, h1, h2, h3, h4]

variable (m : (ℓ : Loc nD τ sig) → Buf (Elt Ideal) ℓ)

/-- What the operations after the region leave in the result buffer: the head of the region's output array with its
    unit axis dropped, at the head's weights as launched — for any proof data, whatever its output array `G`. -/
theorem tail_of (dats : (p : Fin 1) → (c : Dev nD) → Pipeline.Dat τ (Elt Ideal) Unit ℕ (UR sig nD τ) ℕ (cfgs p) c) (c : Dev nD)
    (G : S32x1x32.Idx → EReal) (hG : (dats 0 c).arrAt 6 cfg0.N = G) :
    Pipeline.afterTail₀ cfgs dats 0 (V0 m) [hostOps1, hostOps1_1, hostOps1_2] c main_v12
      = head (F := Ideal) (fun i => shapeCast S32x32 G shapeCasts_S32x1x32_S32x32 i)
          (m ((c : Thread nD τ).loc main_arg6)) (m ((c : Thread nD τ).loc main_arg7))
          (m ((c : Thread nD τ).loc main_arg8)) (m ((c : Thread nD τ).loc main_arg9)) := by
  unfold Pipeline.afterTail₀
  simp only [Gen.hostOps1, Gen.hostOps1_1, Gen.hostOps1_2, List.flatten_cons, List.flatten_nil, List.append_nil, List.cons_append, List.nil_append]
  show StableHlo.after _ _ (Proc.devRef .tc main_v12) = _
  after_results
  have e2 : Pipeline.withArrays (cfgs 0).spec c (V0 m c) (fun w => (dats 0 c).arrAt w (cfgs 0).N) (Proc.devRef .tc main_v2) = G :=
    (Pipeline.withArrays_arr spec0 launch0.win.arr_inj c _ _ 6).trans hG
  have e6 : Pipeline.withArrays (cfgs 0).spec c (V0 m c) (fun w => (dats 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  have e7 : Pipeline.withArrays (cfgs 0).spec c (V0 m c) (fun w => (dats 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have e8 : Pipeline.withArrays (cfgs 0).spec c (V0 m c) (fun w => (dats 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have e9 : Pipeline.withArrays (cfgs 0).spec c (V0 m c) (fun w => (dats 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  rw [e2, e6, e7, e8, e9]
  rfl

/-- The kernel's result: the head of all graphs' pooled vectors, at the head's weights as launched. -/
abbrev result (c : Dev nD) : (⟨S32x1, .f32⟩ : BufTy).Contents (Elt Ideal) :=
  head (F := Ideal)
    (Cert.Gcn.pooledRows (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)))
    (m ((c : Thread nD τ).loc main_arg6)) (m ((c : Thread nD τ).loc main_arg7))
    (m ((c : Thread nD τ).loc main_arg8)) (m ((c : Thread nD τ).loc main_arg9))

/-- The operations after the region leave `result` in the result buffer: the region's output array is the pooled array,
    and dropping its unit axis gives the pooled rows. -/
theorem tail_eq (c : Dev nD) :
    Pipeline.afterTail₀ cfgs (GenP.dats m) 0 (V0 m) [hostOps1, hostOps1_1, hostOps1_2] c main_v12 = result m c :=
  (tail_of m (GenP.dats m) c _ (Cert.KernelIdeal.Arrays.final m c)).trans
    (head_congr (Cert.Gcn.pooledRows3_reshape _ _ _ _ _ _ shapeCasts_S32x1x32_S32x32) rfl rfl rfl rfl)

/-- The kernel's run: every weakly fair execution ends with the result buffer at `result` and the ten arguments as
    launched (each argument either an array of the region that no point writes back, or a buffer no operation writes). -/
theorem run (ρ : Dev nD → PrngReg) :
    θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v12 (Pipeline.mem_restRefs_of main_v12 (by decide) (by decide))).trans (tail_eq m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c))),
      ((h c).1 2).trans (((GenP.dats m 0 c).arrAt_in 2 rfl _).trans ((GenP.A_eq m c 2).trans (V_main_arg2 m c))),
      ((h c).2 main_arg3 (Pipeline.mem_restRefs_of main_arg3 (by decide) (by decide))).trans (W_main_arg3 m (GenP.dats m) c),
      ((h c).1 4).trans (((GenP.dats m 0 c).arrAt_in 4 rfl _).trans ((GenP.A_eq m c 4).trans (V_main_arg4 m c))),
      ((h c).2 main_arg5 (Pipeline.mem_restRefs_of main_arg5 (by decide) (by decide))).trans (W_main_arg5 m (GenP.dats m) c),
      ((h c).2 main_arg6 (Pipeline.mem_restRefs_of main_arg6 (by decide) (by decide))).trans (W_main_arg6 m (GenP.dats m) c),
      ((h c).2 main_arg7 (Pipeline.mem_restRefs_of main_arg7 (by decide) (by decide))).trans (W_main_arg7 m (GenP.dats m) c),
      ((h c).2 main_arg8 (Pipeline.mem_restRefs_of main_arg8 (by decide) (by decide))).trans (W_main_arg8 m (GenP.dats m) c),
      ((h c).2 main_arg9 (Pipeline.mem_restRefs_of main_arg9 (by decide) (by decide))).trans (W_main_arg9 m (GenP.dats m) c)⟩)
    (GenP.run_main m ρ)

end Cert.KernelIdeal.Tail

end
-- ==== Proof.lean ====
/-
  The claim: the fused two-layer graph convolution with its dense head computes what the reference computes.

  Both programs take, for each of 32 graphs, node features and an adjacency matrix, two weight matrices and two bias
  vectors shared by the graphs, and the four arrays of a dense head. For one graph the specification `Cert.Gcn.pooled`
  is: project the features by the first weight matrix, aggregate over neighbours by the adjacency, add the bias, clamp at
  zero; the same again with the second weight matrix and bias; sum over the nodes. The kernel does this once per graph in
  one region (one grid point per graph, writing one row of the region's output array), the reference with whole-array
  operations over all graphs at once; either way the `32 × 32` array of pooled vectors is `Cert.Gcn.pooledRows` of the
  arguments. Both programs then apply the SAME dense head to that array (a product, a bias, the clamp at zero, a product,
  a bias), kept as one function that is never opened: equal arguments give equal results. Nothing in the comparison
  moves a factor across a sum or cancels, so the inputs' finiteness is not used.

  The frames (every execution terminates, nothing faults, the arguments end as launched) are the programs' frame
  certificates; the reference's is its run with the result dropped. The idealization rewrote nothing, so `preserves` is
  trivial.
-/
import proofs.«144628_j41695542509689_2_alg».proof.Defs
import proofs.«144628_j41695542509689_2_alg».proof.Proof.Gen.Kernel
import proofs.«144628_j41695542509689_2_alg».proof.Proof.Gen.Kernel.Skeleton
import proofs.«144628_j41695542509689_2_alg».proof.Proof.Gen.Kernel.Loops
import proofs.«144628_j41695542509689_2_alg».proof.Proof.Gen.Kernel.Launch
import proofs.«144628_j41695542509689_2_alg».proof.Proof.Gen.Kernel.Points
import proofs.«144628_j41695542509689_2_alg».proof.Proof.KernelFrameP
import proofs.«144628_j41695542509689_2_alg».proof.Proof.Gen.KernelIdeal
import proofs.«144628_j41695542509689_2_alg».proof.Proof.Gen.KernelIdeal.Skeleton
import proofs.«144628_j41695542509689_2_alg».proof.Proof.Gen.KernelIdeal.Loops
import proofs.«144628_j41695542509689_2_alg».proof.Proof.Gen.KernelIdeal.Launch
import proofs.«144628_j41695542509689_2_alg».proof.Proof.Gen.KernelIdeal.Points
import proofs.«144628_j41695542509689_2_alg».proof.Proof.KernelIdealFrameP
import proofs.«144628_j41695542509689_2_alg».proof.Proof.Gen.ReferenceIdeal
import proofs.«144628_j41695542509689_2_alg».proof.Proof.Gen.ReferenceIdeal.Run
import proofs.«144628_j41695542509689_2_alg».proof.Proof.Gen.ReferenceIdeal.Read
import proofs.«144628_j41695542509689_2_alg».proof.Proof.Gen.Pre_finite_inputs
import proofs.«144628_j41695542509689_2_alg».proof.Proof.RefPool
import proofs.«144628_j41695542509689_2_alg».proof.Proof.Tail
import Idealize.ShloMosaic.Adequacy
import Idealize.ShloMosaic.Init

noncomputable section

namespace Cert.Proof

open Idealize.ShloMosaic Idealize.SL.Sem Cert.Kernel
open Idealize.ShloMosaic.ValueIdx

/-! ## The reference's result is the head of the pooled rows -/

/-- The reference's last stage is the kernel's head applied to the reference's pooled stage: the same operations, read
    off the two programs' own copies of the shapes and dimension records. -/
theorem ref_head (x0 : (⟨Cert.ReferenceIdeal.S32x2048x64, .f32⟩ : BufTy).Contents (Elt Ideal))
    (x1 : (⟨Cert.ReferenceIdeal.S32x2048x2048, .f32⟩ : BufTy).Contents (Elt Ideal))
    (x2 : (⟨Cert.ReferenceIdeal.S64x32, .f32⟩ : BufTy).Contents (Elt Ideal))
    (x3 : (⟨Cert.ReferenceIdeal.S32, .f32⟩ : BufTy).Contents (Elt Ideal))
    (x4 : (⟨Cert.ReferenceIdeal.S32x32, .f32⟩ : BufTy).Contents (Elt Ideal))
    (x5 : (⟨Cert.ReferenceIdeal.S32, .f32⟩ : BufTy).Contents (Elt Ideal))
    (x6 : (⟨Cert.ReferenceIdeal.S32x512, .f32⟩ : BufTy).Contents (Elt Ideal))
    (x7 : (⟨Cert.ReferenceIdeal.S512, .f32⟩ : BufTy).Contents (Elt Ideal))
    (x8 : (⟨Cert.ReferenceIdeal.S512x1, .f32⟩ : BufTy).Contents (Elt Ideal))
    (x9 : (⟨Cert.ReferenceIdeal.S1, .f32⟩ : BufTy).Contents (Elt Ideal)) :
    Cert.ReferenceIdeal.Read.val_main_v21 (F := Ideal) x0 x1 x2 x3 x4 x5 x6 x7 x8 x9
      = Cert.KernelIdeal.Tail.head (F := Ideal) (Cert.ReferenceIdeal.Read.val_main_v12 (F := Ideal) x0 x1 x2 x3 x4 x5) x6 x7 x8 x9 :=
  rfl

/-- The reference's pooled stage is all graphs' pooled vectors: entry `(b, d)` is entry `d` of graph `b`'s. -/
theorem ref_pooled (x0 : (⟨Cert.ReferenceIdeal.S32x2048x64, .f32⟩ : BufTy).Contents (Elt Ideal))
    (x1 : (⟨Cert.ReferenceIdeal.S32x2048x2048, .f32⟩ : BufTy).Contents (Elt Ideal))
    (x2 : (⟨Cert.ReferenceIdeal.S64x32, .f32⟩ : BufTy).Contents (Elt Ideal))
    (x3 : (⟨Cert.ReferenceIdeal.S32, .f32⟩ : BufTy).Contents (Elt Ideal))
    (x4 : (⟨Cert.ReferenceIdeal.S32x32, .f32⟩ : BufTy).Contents (Elt Ideal))
    (x5 : (⟨Cert.ReferenceIdeal.S32, .f32⟩ : BufTy).Contents (Elt Ideal)) :
    Cert.ReferenceIdeal.Read.val_main_v12 (F := Ideal) x0 x1 x2 x3 x4 x5 = Cert.Gcn.pooledRows x0 x1 x2 x3 x4 x5 := by
  funext i
  obtain ⟨b, d, rfl⟩ : ∃ (b d : Fin 32), i = ix2 b d := ⟨i 0, i 1, eq_ix2 i⟩
  exact (Cert.ReferenceIdeal.RefPool.pooled_eq x0 x1 x2 x3 x4 x5 b d).trans rfl

/-! ## The claims -/

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments both programs end with the head of the arguments' pooled rows: the
    kernel by its run, the reference by its run read as the head of its pooled stage. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, ref_head, ref_pooled, (hagree c).1, (hagree c).2.1, (hagree c).2.2.1,
    (hagree c).2.2.2.1, (hagree c).2.2.2.2.1, (hagree c).2.2.2.2.2.1, (hagree c).2.2.2.2.2.2.1,
    (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
